-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x100 : Shape := ⟨2, ![600000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S2250000 : Shape := ⟨1, ![2250000]⟩
abbrev S204800 : Shape := ⟨1, ![204800]⟩
abbrev S_ : Shape := ⟨0, ![]⟩

class Facts : Prop where
  bcast_S_S600000x100 : S_.BroadcastsInDim S600000x100 (![] : Fin 0 → Fin S600000x100.rank)
  reducesTo_S600000x100_S_d0_1 : S600000x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg4 : FVec F S256x47 .f32) (main_arg5 : FVec F S256x47 .f32) (main_arg6 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x47 .f32 := Host.absf main_arg4
  let main_cst_6 : FVec F S_ .f32 := constant S_ .f32 0x7F800000#32
  let main_v20 : FVec F S256x47 .f32 := broadcastInDim S256x47 ![] bcast_S_S256x47 main_cst_6
  let main_v21 : IVec S256x47 1 := cmpf .olt main_v19 main_v20
  let main_c_7 : IVec S_ 1 := constantI S_ 1 1#1
  let main_v22 : IVec S_ 1 := (fun x v => Host.reduce IntOp.andi x v reducesTo_S256x47_S_d0_1 h_S_) main_v21 main_c_7
  let main_v23 : IVec S_ 1 := andi main_v18 main_v22
  let main_v24 : FVec F S256x47 .f32 := Host.absf main_arg5
  let main_cst_8 : FVec F S_ .f32 := constant S_ .f32 0x7F800000#32
  let main_v25 : FVec F S256x47 .f32 := broadcastInDim S256x47 ![] bcast_S_S256x47 main_cst_8
  let main_v26 : IVec S256x47 1 := cmpf .olt main_v24 main_v25
  let main_c_9 : IVec S_ 1 := constantI S_ 1 1#1
  let main_v27 : IVec S_ 1 := (fun x v => Host.reduce IntOp.andi x v reducesTo_S256x47_S_d0_1 h_S_) main_v26 main_c_9
  let main_v28 : IVec S_ 1 := andi main_v23 main_v27
  let main_v29 : FVec F S47 .f32 := Host.absf main_arg6
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S600000x100 .f32) (main_arg1 : FVec F S100x256 .f32) (main_arg2 : FVec F S100x256 .f32) (main_arg3 : FVec F S256 .f32) (main_arg4 : FVec F S256x47 .f32) (main_arg5 : FVec F S256x47 .f32) (main_arg6 : FVec F S47 .f32) (main_arg7 : IVec S2250000 32) (main_arg8 : IVec S2250000 32) (main_arg9 : IVec S204800 32) (main_arg10 : IVec S204800 32) : IVec S_ 1 :=
  let main_v0 : FVec F S600000x100 .f32 := Host.absf main_arg0
  let main_cst : FVec F S_ .f32 := constant S_ .f32 0x7F800000#32
  let main_v1 : FVec F S600000x100 .f32 := broadcastInDim S600000x100 ![] bcast_S_S600000x100 main_cst
  let main_v2 : IVec S600000x100 1 := cmpf .olt main_v0 main_v1
  let main_c : IVec S_ 1 := constantI S_ 1 1#1
  let main_v3 : IVec S_ 1 := (fun x v => Host.reduce IntOp.andi x v reducesTo_S600000x100_S_d0_1 h_S_) main_v2 main_c
  let main_v4 : FVec F S100x256 .f32 := Host.absf main_arg1
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S100x256 .f32 := Host.absf main_arg2
  let main_cst_2 : FVec F S_ .f32 := constant S_ .f32 0x7F800000#32
  let main_v10 : FVec F S100x256 .f32 := broadcastInDim S100x256 ![] bcast_S_S100x256 main_cst_2
  let main_v11 : IVec S100x256 1 := cmpf .olt main_v9 main_v10
  let main_c_3 : IVec S_ 1 := constantI S_ 1 1#1
  let main_v12 : IVec S_ 1 := (fun x v => Host.reduce IntOp.andi x v reducesTo_S100x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S600000x100 : Shape := ⟨2, ![600000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S2250000 : Shape := ⟨1, ![2250000]⟩
abbrev S204800 : Shape := ⟨1, ![204800]⟩
abbrev S_ : Shape := ⟨0, ![]⟩
abbrev S2250000x1 : Shape := ⟨2, ![2250000, 1]⟩
abbrev S2250000x100 : Shape := ⟨2, ![2250000, 100]⟩
abbrev S90000x100 : Shape := ⟨2, ![90000, 100]⟩
abbrev S90000 : Shape := ⟨1, ![90000]⟩
abbrev S1x256 : Shape := ⟨2, ![1, 256]⟩
abbrev S90000x1 : Shape := ⟨2, ![90000, 1]⟩
abbrev S90000x256 : Shape := ⟨2, ![90000, 256]⟩
abbrev S9000x100 : Shape := ⟨2, ![9000, 100]⟩
abbrev S9000x1 : Shape := ⟨2, ![9000, 1]⟩
abbrev S9000x256 : Shape := ⟨2, ![9000, 256]⟩
abbrev S90000x47 : Shape := ⟨2, ![90000, 47]⟩
abbrev S9000x47 : Shape := ⟨2, ![9000, 47]⟩
abbrev S204800x1 : Shape := ⟨2, ![204800, 1]⟩
abbrev S204800x47 : Shape := ⟨2, ![204800, 47]⟩
abbrev S8192x47 : Shape := ⟨2, ![8192, 47]⟩
abbrev S8192 : Shape := ⟨1, ![8192]⟩
abbrev S8192x256 : Shape := ⟨2, ![8192, 256]⟩
abbrev S1x47 : Shape := ⟨2, ![1, 47]⟩
abbrev S8192x1 : Shape := ⟨2, ![8192, 1]⟩
abbrev S2048x256 : Shape := ⟨2, ![2048, 256]⟩
abbrev S2048x47 : Shape := ⟨2, ![2048, 47]⟩
abbrev S2048x1 : Shape := ⟨2, ![2048, 1]⟩

abbrev nBuf : Space → Nat
  | .hbm => 58
  | .vmem => 26
  | .smem => 0
  | _ => 0

abbrev bufTy : (tb : Table) → Fin (tcTables nBuf tb) → BufTy
  | .hbm, ⟨0, _⟩ => ⟨S600000x100, .f32⟩
  | .hbm, ⟨1, _⟩ => ⟨S100x256, .f32⟩
  | .hbm, ⟨2, _⟩ => ⟨S100x256, .f32⟩
  | .hbm, ⟨3, _⟩ => ⟨S256, .f32⟩
  | .hbm, ⟨4, _⟩ => ⟨S256x47, .f32⟩
  | .hbm, ⟨5, _⟩ => ⟨S256x47, .f32⟩
  | .hbm, ⟨6, _⟩ => ⟨S47, .f32⟩
  | .hbm, ⟨7, _⟩ => ⟨S2250000, .i32⟩
  | .hbm, ⟨8, _⟩ => ⟨S2250000, .i32⟩
  | .hbm, ⟨9, _⟩ => ⟨S204800, .i32⟩
  | .hbm, ⟨10, _⟩ => ⟨S204800, .i32⟩
  | .hbm, ⟨11, _⟩ => ⟨S_, .i32⟩
  | .hbm, ⟨12, _⟩ => ⟨S2250000, .i32⟩
  | .hbm, ⟨13, _⟩ => ⟨S2250000, .i1⟩
  | .hbm, ⟨14, _⟩ => ⟨S_, .i32⟩
  | .hbm, ⟨15, _⟩ => ⟨S2250000, .i32⟩
  | .hbm, ⟨16, _⟩ => ⟨S2250000, .i32⟩
  | .hbm, ⟨17, _⟩ => ⟨S2250000, .i32⟩
  | .hbm, ⟨18, _⟩ => ⟨S2250000x1, .i32⟩
  | .hbm, ⟨19, _⟩ => ⟨S2250000x100, .f32⟩
  | .hbm, ⟨20, _⟩ => ⟨S_, .f32⟩
  | .hbm, ⟨21, _⟩ => ⟨S90000x100, .f32⟩
  | .hbm, ⟨22, _⟩ => ⟨S2250000x1, .i32⟩
  | .hbm, ⟨23, _⟩ => ⟨S90000x100, .f32⟩
  | .hbm, ⟨24, _⟩ => ⟨S_, .f32⟩
  | .hbm, ⟨25, _⟩ => ⟨S2250000, .f32⟩
  | .hbm, ⟨26, _⟩ => ⟨S_, .f32⟩
  | .hbm, ⟨27, _⟩ => ⟨S90000, .f32⟩
  | .hbm, ⟨28, _⟩ => ⟨S2250000x1, .i32⟩
  | .hbm, ⟨29, _⟩ => ⟨S90000, .f32⟩
  | .hbm, ⟨30, _⟩ => ⟨S90000x100, .f32⟩
  | .hbm, ⟨31, _⟩ => ⟨S1x256, .f32⟩
  | .hbm, ⟨32, _⟩ => ⟨S90000x1, .f32⟩
  | .hbm, ⟨33, _⟩ => ⟨S90000x256, .f32⟩
  | .hbm, ⟨34, _⟩ => ⟨S90000x47, .f32⟩
  | .hbm, ⟨35, _⟩ => ⟨S_, .i32⟩
  | .hbm, ⟨36, _⟩ => ⟨S204800, .i32⟩
  | .hbm, ⟨37, _⟩ => ⟨S204800, .i1⟩
  | .hbm, ⟨38, _⟩ => ⟨S_, .i32⟩
  | .hbm, ⟨39, _⟩ => ⟨S204800, .i32⟩
  | .hbm, ⟨40, _⟩ => ⟨S204800, .i32⟩
  | .hbm, ⟨41, _⟩ => ⟨S204800, .i32⟩
  | .hbm, ⟨42, _⟩ => ⟨S204800x1, .i32⟩
  | .hbm, ⟨43, _⟩ => ⟨S204800x47, .f32⟩
  | .hbm, ⟨44, _⟩ => ⟨S_, .f32⟩
  | .hbm, ⟨45, _⟩ => ⟨S8192x47, .f32⟩
  | .hbm, ⟨46, _⟩ => ⟨S204800x1, .i32⟩
  | .hbm, ⟨47, _⟩ => ⟨S8192x47, .f32⟩
  | .hbm, ⟨48, _⟩ => ⟨S_, .f32⟩
  | .hbm, ⟨49, _⟩ => ⟨S204800, .f32⟩
  | .hbm, ⟨50, _⟩ => ⟨S_, .f32⟩
  | .hbm, ⟨51, _⟩ => ⟨S8192, .f32⟩
  | .hbm, ⟨52, _⟩ => ⟨S204800x1, .i32⟩
  | .hbm, ⟨53, _⟩ => ⟨S8192, .f32⟩
  | .hbm, ⟨54, _⟩ => ⟨S8192x256, .f32⟩
  | .hbm, ⟨55, _⟩ => ⟨S1x47, .f32⟩
  | .hbm, ⟨56, _⟩ => ⟨S8192x1, .f32⟩
  | .hbm, ⟨57, _⟩ => ⟨S8192x47, .f32⟩
  | .local _ .vmem, ⟨0, _⟩ => ⟨S9000x100, .f32⟩
  | .local _ .vmem, ⟨1, _⟩ => ⟨S9000x100, .f32⟩
  | .local _ .vmem, ⟨2, _⟩ => ⟨S9000x100, .f32⟩
  | .local _ .vmem, ⟨3, _⟩ => ⟨S9000x100, .f32⟩
  | .local _ .vmem, ⟨4, _⟩ => ⟨S9000x1, .f32⟩
  | .local _ .vmem, ⟨5, _⟩ => ⟨S9000x1, .f32⟩
  | .local _ .vmem, ⟨6, _⟩ => ⟨S100x256, .f32⟩
  | .local _ .vmem, ⟨7, _⟩ => ⟨S100x256, .f32⟩
  | .local _ .vmem, ⟨8, _⟩ => ⟨S1x256, .f32⟩
  | .local _ .vmem, ⟨9, _⟩ => ⟨S9000x256, .f32⟩
  | .local _ .vmem, ⟨10, _⟩ => ⟨S9000x256, .f32⟩
  | .local _ .vmem, ⟨11, _⟩ => ⟨S9000x256, .f32⟩
  | .local _ .vmem, ⟨12, _⟩ => ⟨S9000x256, .f32⟩
  | .local _ .vmem, ⟨13, _⟩ => ⟨S256x47, .f32⟩
  | .local _ .vmem, ⟨14, _⟩ => ⟨S9000x47, .f32⟩
  | .local _ .vmem, ⟨15, _⟩ => ⟨S9000x47, .f32⟩
  | .local _ .vmem, ⟨16, _⟩ => ⟨S2048x256, .f32⟩
  | .local _ .vmem, ⟨17, _⟩ => ⟨S2048x256, .f32⟩
  | .local _ .vmem, ⟨18, _⟩ => ⟨S2048x47, .f32⟩
  | .local _ .vmem, ⟨19, _⟩ => ⟨S2048x47, .f32⟩
  | .local _ .vmem, ⟨20, _⟩ => ⟨S2048x1, .f32⟩
  | .local _ .vmem, ⟨21, _⟩ => ⟨S2048x1, .f32⟩
  | .local _ .vmem, ⟨22, _⟩ => ⟨S256x47, .f32⟩
  | .local _ .vmem, ⟨23, _⟩ => ⟨S1x47, .f32⟩
  | .local _ .vmem, ⟨24, _⟩ => ⟨S2048x47, .f32⟩
  | .local _ .vmem, ⟨25, _⟩ => ⟨S2048x47, .f32⟩
  | _, _ => ⟨S600000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S9000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S9000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S9000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x47 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S9000x47 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x47 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S2250000 : S_.BroadcastsInDim S2250000 (![] : Fin 0 → Fin S2250000.rank)
  bcast_S2250000_S2250000x1_0 : S2250000.BroadcastsInDim S2250000x1 (![0] : Fin 1 → Fin S2250000x1.rank)
  bcast_S_S90000x100 : S_.BroadcastsInDim S90000x100 (![] : Fin 0 → Fin S90000x100.rank)
  bcast_S_S90000 : S_.BroadcastsInDim S90000 (![] : Fin 0 → Fin S90000.rank)
  slices_S600000x100_S90000x100_0_0 : S600000x100.Slices ![0, 0] S90000x100
  shapeCasts_S256_S1x256 : S256.ShapeCasts S1x256
  shapeCasts_S90000_S90000x1 : S90000.ShapeCasts S90000x1
  inb_S9000x100_S9000x100_0_0 : ∀ a, (![0, 0] : Fin 2 → Nat) a + S9000x100.size a ≤ S9000x100.size a
  h_S9000x100 : 0 < S9000x100.numel
  shapeCasts_S9000x100_S9000x100 : S9000x100.ShapeCasts S9000x100
  inb_S9000x1_S9000x1_0_0 : ∀ a, (![0, 0] : Fin 2 → Nat) a + S9000x1.size a ≤ S9000x1.size a
  h_S9000x1 : 0 < S9000x1.numel
  shapeCasts_S9000x1_S9000x1 : S9000x1.ShapeCasts S9000x1
  broadcasts_S9000x1_S9000x100 : S9000x1.Broadcasts S9000x100
  inb_S100x256_S100x256_0_0 : ∀ a, (![0, 0] : Fin 2 → Nat) a + S100x256.size a ≤ S100x256.size a
  h_S100x256 : 0 < S100x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S9000x256 : S1x256.Broadcasts S9000x256
  inb_S9000x256_S9000x256_0_0 : ∀ a, (![0, 0] : Fin 2 → Nat) a + S9000x256.size a ≤ S9000x256.size a
  h_S9000x256 : 0 < S9000x256.numel
  shapeCasts_S9000x256_S9000x256 : S9000x256.ShapeCasts S9000x256
  inb_S256x47_S256x47_0_0 : ∀ a, (![0, 0] : Fin 2 → Nat) a + S256x47.size a ≤ S256x47.size a
  h_S256x47 : 0 < S256x47.numel
  inb_S9000x47_S9000x47_0_0 : ∀ a, (![0, 0] : Fin 2 → Nat) a + S9000x47.size a ≤ S9000x47.size a
  h_S9000x47 : 0 < S9000x47.numel
  bcast_S_S204800 : S_.BroadcastsInDim S204800 (![] : Fin 0 → Fin S204800.rank)
  bcast_S204800_S204800x1_0 : S204800.BroadcastsInDim S204800x1 (![0] : Fin 1 → Fin S204800x1.rank)
  bcast_S_S8192x47 : S_.BroadcastsInDim S8192x47 (![] : Fin 0 → Fin S8192x47.rank)
  bcast_S_S8192 : S_.BroadcastsInDim S8192 (![] : Fin 0 → Fin S8192.rank)
  slices_S90000x256_S8192x256_0_0 : S90000x256.Slices ![0, 0] S8192x256
  shapeCasts_S47_S1x47 : S47.ShapeCasts S1x47
  shapeCasts_S8192_S8192x1 : S8192.ShapeCasts S8192x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x47_S2048x47_0_0 : ∀ a, (![0, 0] : Fin 2 → Nat) a + S2048x47.size a ≤ S2048x47.size a
  h_S2048x47 : 0 < S2048x47.numel
  shapeCasts_S2048x47_S2048x47 : S2048x47.ShapeCasts S2048x47
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x47 : S2048x1.Broadcasts S2048x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2048x47 : S1x47.Broadcasts S2048x47
  gather_S600000x100_S2250000x1_S2250000x100_1_0_n_n_0_1_1100_wf : GatherDims.WF S600000x100 S2250000x1 S2250000x100 [1] [0] [] [0] [] 1 ![1, 100]
  scatter_S90000x100_S2250000x1_S2250000x100_1_0_0_1_wf : ScatterDims.WF S90000x100 S2250000x1 S2250000x100 [1] [0] [0] 1
  scatter_S90000_S2250000x1_S2250000_n_0_0_1_wf : ScatterDims.WF S90000 S2250000x1 S2250000 [] [0] [0] 1
  dot_S9000x100_S100x256_S9000x256_1_0_0_1_n_n_wf : DotDims.WF S9000x100 S100x256 S9000x256 [1] [0] [0] [1] [] []
  dot_S9000x256_S256x47_S9000x47_1_0_0_1_n_n_wf : DotDims.WF S9000x256 S256x47 S9000x47 [1] [0] [0] [1] [] []
  gather_S90000x47_S204800x1_S204800x47_1_0_n_n_0_1_147_wf : GatherDims.WF S90000x47 S204800x1 S204800x47 [1] [0] [] [0] [] 1 ![1, 47]
  scatter_S8192x47_S204800x1_S204800x47_1_0_0_1_wf : ScatterDims.WF S8192x47 S204800x1 S204800x47 [1] [0] [0] 1
  scatter_S8192_S204800x1_S204800_n_0_0_1_wf : ScatterDims.WF S8192 S204800x1 S204800 [] [0] [0] 1
  dot_S2048x256_S256x47_S2048x47_1_0_0_1_n_n_wf : DotDims.WF S2048x256 S256x47 S2048x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9000x100.size a ≤ S90000x100.size a
  hwx0_0 : ∀ i : grid0.Coords, EltTy.bits .f32 = 32 ∨ (Rect.block (s := S90000x100) S9000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9000x100.size a ≤ S90000x100.size a
  hwx0_1 : ∀ i : grid0.Coords, EltTy.bits .f32 = 32 ∨ (Rect.block (s := S90000x100) S9000x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9000x1.size a ≤ S90000x1.size a
  hwx0_2 : ∀ i : grid0.Coords, EltTy.bits .f32 = 32 ∨ (Rect.block (s := S90000x1) S9000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x256.size a
  hwx0_3 : ∀ i : grid0.Coords, EltTy.bits .f32 = 32 ∨ (Rect.block (s := S100x256) S100x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x256.size a ≤ S100x256.size a
  hwx0_4 : ∀ i : grid0.Coords, EltTy.bits .f32 = 32 ∨ (Rect.block (s := S100x256) S100x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S9000x256.size a ≤ S90000x256.size a
  hwx0_6 : ∀ i : grid0.Coords, EltTy.bits .f32 = 32 ∨ (Rect.block (s := S90000x256) S9000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9000x256.size a ≤ S90000x256.size a
  hwx1_0 : ∀ i : grid1.Coords, EltTy.bits .f32 = 32 ∨ (Rect.block (s := S90000x256) S9000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x47.size a ≤ S256x47.size a
  hwx1_1 : ∀ i : grid1.Coords, EltTy.bits .f32 = 32 ∨ (Rect.block (s := S256x47) S256x47.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S9000x47.size a ≤ S90000x47.size a
  hwx1_2 : ∀ i : grid1.Coords, EltTy.bits .f32 = 32 ∨ (Rect.block (s := S90000x47) S9000x47.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x256.size a
  hwx2_0 : ∀ i : grid2.Coords, EltTy.bits .f32 = 32 ∨ (Rect.block (s := S8192x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x47.size a ≤ S8192x47.size a
  hwx2_1 : ∀ i : grid2.Coords, EltTy.bits .f32 = 32 ∨ (Rect.block (s := S8192x47) S2048x47.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .f32 = 32 ∨ (Rect.block (s := S256x47) S256x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x47.size a ≤ S8192x47.size a
  hwx2_5 : ∀ i : grid2.Coords, EltTy.bits .f32 = 32 ∨ (Rect.block (s := S8192x47) S2048x47.size (cc2_transform_5 i) (hinb2_5 i)).WholeWords (EltTy.packing .f32)

variable [Facts₀]

def gather_S600000x100_S2250000x1_S2250000x100_1_0_n_n_0_1_1100 : GatherDims S600000x100 S2250000x1 S2250000x100 where
  offsetDims := [1]
  collapsedSliceDims := [0]
  operandBatchingDims := []
  startIndicesBatchingDims := []
  startIndexMap := [0]
  indexVectorDim := 1
  sliceSizes := ![1, 100]
  wf := gather_S600000x100_S2250000x1_S2250000x100_1_0_n_n_0_1_1100_wf
def scatter_S90000x100_S2250000x1_S2250000x100_1_0_0_1 : ScatterDims S90000x100 S2250000x1 S2250000x100 where
  updateWindowDims := [1]
  insertedWindowDims := [0]
  scatterDimsToOperandDims := [0]
  indexVectorDim := 1
  wf := scatter_S90000x100_S2250000x1_S2250000x100_1_0_0_1_wf
def scatter_S90000_S2250000x1_S2250000_n_0_0_1 : ScatterDims S90000 S2250000x1 S2250000 where
  updateWindowDims := []
  insertedWindowDims := [0]
  scatterDimsToOperandDims := [0]
  indexVectorDim := 1
  wf := scatter_S90000_S2250000x1_S2250000_n_0_0_1_wf
def dot_S9000x100_S100x256_S9000x256_1_0_0_1_n_n : DotDims S9000x100 S100x256 S9000x256 where
  lhsContracting := [1]
  rhsContracting := [0]
  lhsNonContracting := [0]
  rhsNonContracting := [1]
  lhsBatch := []
  rhsBatch := []
  wf := dot_S9000x100_S100x256_S9000x256_1_0_0_1_n_n_wf
def dot_S9000x256_S256x47_S9000x47_1_0_0_1_n_n : DotDims S9000x256 S256x47 S9000x47 where
  lhsContracting := [1]
  rhsContracting := [0]
  lhsNonContracting := [0]
  rhsNonContracting := [1]
  lhsBatch := []
  rhsBatch := []
  wf := dot_S9000x256_S256x47_S9000x47_1_0_0_1_n_n_wf
def gather_S90000x47_S204800x1_S204800x47_1_0_n_n_0_1_147 : GatherDims S90000x47 S204800x1 S204800x47 where
  offsetDims := [1]
  collapsedSliceDims := [0]
  operandBatchingDims := []
  startIndicesBatchingDims := []
  startIndexMap := [0]
  indexVectorDim := 1
  sliceSizes := ![1, 47]
  wf := gather_S90000x47_S204800x1_S204800x47_1_0_n_n_0_1_147_wf
def scatter_S8192x47_S204800x1_S204800x47_1_0_0_1 : ScatterDims S8192x47 S204800x1 S204800x47 where
  updateWindowDims := [1]
  insertedWindowDims := [0]
  scatterDimsToOperandDims := [0]
  indexVectorDim := 1
  wf := scatter_S8192x47_S204800x1_S204800x47_1_0_0_1_wf
def scatter_S8192_S204800x1_S204800_n_0_0_1 : ScatterDims S8192 S204800x1 S204800 where
  updateWindowDims := []
  insertedWindowDims := [0]
  scatterDimsToOperandDims := [0]
  indexVectorDim := 1
  wf := scatter_S8192_S204800x1_S204800_n_0_0_1_wf
def dot_S2048x256_S256x47_S2048x47_1_0_0_1_n_n : DotDims S2048x256 S256x47 S2048x47 where
  lhsContracting := [1]
  rhsContracting := [0]
  lhsNonContracting := [0]
  rhsNonContracting := [1]
  lhsBatch := []
  rhsBatch := []
  wf := dot_S2048x256_S256x47_S2048x47_1_0_0_1_n_n_wf

abbrev win0_0 : Pipeline.Window sig grid0 :=
  Pipeline.Window.ofSpec (Memref.whole main_v14) S9000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S9000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S9000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S100x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S100x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S9000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S9000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x47.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S9000x47.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v33) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2048x47.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S2048x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S600000x100 : Shape := ⟨2, ![600000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S2250000 : Shape := ⟨1, ![2250000]⟩
abbrev S204800 : Shape := ⟨1, ![204800]⟩
abbrev S_ : Shape := ⟨0, ![]⟩
abbrev S2250000x1 : Shape := ⟨2, ![2250000, 1]⟩
abbrev S2250000x100 : Shape := ⟨2, ![2250000, 100]⟩
abbrev S90000x100 : Shape := ⟨2, ![90000, 100]⟩
abbrev S90000 : Shape := ⟨1, ![90000]⟩
abbrev S90000x1 : Shape := ⟨2, ![90000, 1]⟩
abbrev S90000x256 : Shape := ⟨2, ![90000, 256]⟩
abbrev S1x256 : Shape := ⟨2, ![1, 256]⟩
abbrev S204800x1 : Shape := ⟨2, ![204800, 1]⟩
abbrev S204800x256 : Shape := ⟨2, ![204800, 256]⟩
abbrev S8192x256 : Shape := ⟨2, ![8192, 256]⟩
abbrev S8192 : Shape := ⟨1, ![8192]⟩
abbrev S8192x1 : Shape := ⟨2, ![8192, 1]⟩
abbrev S8192x47 : Shape := ⟨2, ![8192, 47]⟩
abbrev S1x47 : Shape := ⟨2, ![1, 47]⟩

abbrev nBuf : Space → Nat
  | .hbm => 78
  | .vmem => 0
  | .smem => 0
  | _ => 0

abbrev bufTy : (tb : Table) → Fin (tcTables nBuf tb) → BufTy
  | .hbm, ⟨0, _⟩ => ⟨S600000x100, .f32⟩
  | .hbm, ⟨1, _⟩ => ⟨S100x256, .f32⟩
  | .hbm, ⟨2, _⟩ => ⟨S100x256, .f32⟩
  | .hbm, ⟨3, _⟩ => ⟨S256, .f32⟩
  | .hbm, ⟨4, _⟩ => ⟨S256x47, .f32⟩
  | .hbm, ⟨5, _⟩ => ⟨S256x47, .f32⟩
  | .hbm, ⟨6, _⟩ => ⟨S47, .f32⟩
  | .hbm, ⟨7, _⟩ => ⟨S2250000, .i32⟩
  | .hbm, ⟨8, _⟩ => ⟨S2250000, .i32⟩
  | .hbm, ⟨9, _⟩ => ⟨S204800, .i32⟩
  | .hbm, ⟨10, _⟩ => ⟨S204800, .i32⟩
  | .hbm, ⟨11, _⟩ => ⟨S_, .i32⟩
  | .hbm, ⟨12, _⟩ => ⟨S2250000, .i32⟩
  | .hbm, ⟨13, _⟩ => ⟨S2250000, .i1⟩
  | .hbm, ⟨14, _⟩ => ⟨S_, .i32⟩
  | .hbm, ⟨15, _⟩ => ⟨S2250000, .i32⟩
  | .hbm, ⟨16, _⟩ => ⟨S2250000, .i32⟩
  | .hbm, ⟨17, _⟩ => ⟨S2250000, .i32⟩
  | .hbm, ⟨18, _⟩ => ⟨S2250000x1, .i32⟩
  | .hbm, ⟨19, _⟩ => ⟨S2250000x100, .f32⟩
  | .hbm, ⟨20, _⟩ => ⟨S_, .f32⟩
  | .hbm, ⟨21, _⟩ => ⟨S90000x100, .f32⟩
  | .hbm, ⟨22, _⟩ => ⟨S2250000x1, .i32⟩
  | .hbm, ⟨23, _⟩ => ⟨S90000x100, .f32⟩
  | .hbm, ⟨24, _⟩ => ⟨S_, .f32⟩
  | .hbm, ⟨25, _⟩ => ⟨S2250000, .f32⟩
  | .hbm, ⟨26, _⟩ => ⟨S_, .f32⟩
  | .hbm, ⟨27, _⟩ => ⟨S90000, .f32⟩
  | .hbm, ⟨28, _⟩ => ⟨S2250000x1, .i32⟩
  | .hbm, ⟨29, _⟩ => ⟨S90000, .f32⟩
  | .hbm, ⟨30, _⟩ => ⟨S_, .f32⟩
  | .hbm, ⟨31, _⟩ => ⟨S90000, .f32⟩
  | .hbm, ⟨32, _⟩ => ⟨S90000, .f32⟩
  | .hbm, ⟨33, _⟩ => ⟨S90000x1, .f32⟩
  | .hbm, ⟨34, _⟩ => ⟨S90000x100, .f32⟩
  | .hbm, ⟨35, _⟩ => ⟨S90000x100, .f32⟩
  | .hbm, ⟨36, _⟩ => ⟨S90000x100, .f32⟩
  | .hbm, ⟨37, _⟩ => ⟨S90000x256, .f32⟩
  | .hbm, ⟨38, _⟩ => ⟨S90000x256, .f32⟩
  | .hbm, ⟨39, _⟩ => ⟨S90000x256, .f32⟩
  | .hbm, ⟨40, _⟩ => ⟨S1x256, .f32⟩
  | .hbm, ⟨41, _⟩ => ⟨S90000x256, .f32⟩
  | .hbm, ⟨42, _⟩ => ⟨S90000x256, .f32⟩
  | .hbm, ⟨43, _⟩ => ⟨S_, .f32⟩
  | .hbm, ⟨44, _⟩ => ⟨S90000x256, .f32⟩
  | .hbm, ⟨45, _⟩ => ⟨S90000x256, .f32⟩
  | .hbm, ⟨46, _⟩ => ⟨S_, .i32⟩
  | .hbm, ⟨47, _⟩ => ⟨S204800, .i32⟩
  | .hbm, ⟨48, _⟩ => ⟨S204800, .i1⟩
  | .hbm, ⟨49, _⟩ => ⟨S_, .i32⟩
  | .hbm, ⟨50, _⟩ => ⟨S204800, .i32⟩
  | .hbm, ⟨51, _⟩ => ⟨S204800, .i32⟩
  | .hbm, ⟨52, _⟩ => ⟨S204800, .i32⟩
  | .hbm, ⟨53, _⟩ => ⟨S204800x1, .i32⟩
  | .hbm, ⟨54, _⟩ => ⟨S204800x256, .f32⟩
  | .hbm, ⟨55, _⟩ => ⟨S_, .f32⟩
  | .hbm, ⟨56, _⟩ => ⟨S8192x256, .f32⟩
  | .hbm, ⟨57, _⟩ => ⟨S204800x1, .i32⟩
  | .hbm, ⟨58, _⟩ => ⟨S8192x256, .f32⟩
  | .hbm, ⟨59, _⟩ => ⟨S_, .f32⟩
  | .hbm, ⟨60, _⟩ => ⟨S204800, .f32⟩
  | .hbm, ⟨61, _⟩ => ⟨S_, .f32⟩
  | .hbm, ⟨62, _⟩ => ⟨S8192, .f32⟩
  | .hbm, ⟨63, _⟩ => ⟨S204800x1, .i32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S8192x47, .f32⟩
  | .hbm, ⟨73, _⟩ => ⟨S8192x47, .f32⟩
  | .hbm, ⟨74, _⟩ => ⟨S8192x47, .f32⟩
  | .hbm, ⟨75, _⟩ => ⟨S1x47, .f32⟩
  | .hbm, ⟨76, _⟩ => ⟨S8192x47, .f32⟩
  | .hbm, ⟨77, _⟩ => ⟨S8192x47, .f32⟩
  | _, _ => ⟨S600000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  bcast_S_S2250000 : S_.BroadcastsInDim S2250000 (![] : Fin 0 → Fin S2250000.rank)
  bcast_S2250000_S2250000x1_0 : S2250000.BroadcastsInDim S2250000x1 (![0] : Fin 1 → Fin S2250000x1.rank)
  bcast_S_S90000x100 : S_.BroadcastsInDim S90000x100 (![] : Fin 0 → Fin S90000x100.rank)
  bcast_S_S90000 : S_.BroadcastsInDim S90000 (![] : Fin 0 → Fin S90000.rank)
  bcast_S90000_S90000x1_0 : S90000.BroadcastsInDim S90000x1 (![0] : Fin 1 → Fin S90000x1.rank)
  bcast_S90000x1_S90000x100_0_1 : S90000x1.BroadcastsInDim S90000x100 (![0, 1] : Fin 2 → Fin S90000x100.rank)
  slices_S600000x100_S90000x100_0_0 : S600000x100.Slices ![0, 0] S90000x100
  bcast_S256_S1x256_1 : S256.BroadcastsInDim S1x256 (![1] : Fin 1 → Fin S1x256.rank)
  bcast_S1x256_S90000x256_0_1 : S1x256.BroadcastsInDim S90000x256 (![0, 1] : Fin 2 → Fin S90000x256.rank)
  bcast_S_S90000x256 : S_.BroadcastsInDim S90000x256 (![] : Fin 0 → Fin S90000x256.rank)
  bcast_S_S204800 : S_.BroadcastsInDim S204800 (![] : Fin 0 → Fin S204800.rank)
  bcast_S204800_S204800x1_0 : S204800.BroadcastsInDim S204800x1 (![0] : Fin 1 → Fin S204800x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  slices_S90000x256_S8192x256_0_0 : S90000x256.Slices ![0, 0] S8192x256
  bcast_S47_S1x47_1 : S47.BroadcastsInDim S1x47 (![1] : Fin 1 → Fin S1x47.rank)
  bcast_S1x47_S8192x47_0_1 : S1x47.BroadcastsInDim S8192x47 (![0, 1] : Fin 2 → Fin S8192x47.rank)
  gather_S600000x100_S2250000x1_S2250000x100_1_0_n_n_0_1_1100_wf : GatherDims.WF S600000x100 S2250000x1 S2250000x100 [1] [0] [] [0] [] 1 ![1, 100]
  scatter_S90000x100_S2250000x1_S2250000x100_1_0_0_1_wf : ScatterDims.WF S90000x100 S2250000x1 S2250000x100 [1] [0] [0] 1
  scatter_S90000_S2250000x1_S2250000_n_0_0_1_wf : ScatterDims.WF S90000 S2250000x1 S2250000 [] [0] [0] 1
  dot_S90000x100_S100x256_S90000x256_1_0_0_1_n_n_wf : DotDims.WF S90000x100 S100x256 S90000x256 [1] [0] [0] [1] [] []
  gather_S90000x256_S204800x1_S204800x256_1_0_n_n_0_1_1256_wf : GatherDims.WF S90000x256 S204800x1 S204800x256 [1] [0] [] [0] [] 1 ![1, 256]
  scatter_S8192x256_S204800x1_S204800x256_1_0_0_1_wf : ScatterDims.WF S8192x256 S204800x1 S204800x256 [1] [0] [0] 1
  scatter_S8192_S204800x1_S204800_n_0_0_1_wf : ScatterDims.WF S8192 S204800x1 S204800 [] [0] [0] 1
  dot_S8192x256_S256x47_S8192x47_1_0_0_1_n_n_wf : DotDims.WF S8192x256 S256x47 S8192x47 [1] [0] [0] [1] [] []

variable [Facts₀]

def gather_S600000x100_S2250000x1_S2250000x100_1_0_n_n_0_1_1100 : GatherDims S600000x100 S2250000x1 S2250000x100 where
  offsetDims := [1]
  collapsedSliceDims := [0]
  operandBatchingDims := []
  startIndicesBatchingDims := []
  startIndexMap := [0]
  indexVectorDim := 1
  sliceSizes := ![1, 100]
  wf := gather_S600000x100_S2250000x1_S2250000x100_1_0_n_n_0_1_1100_wf
def scatter_S90000x100_S2250000x1_S2250000x100_1_0_0_1 : ScatterDims S90000x100 S2250000x1 S2250000x100 where
  updateWindowDims := [1]
  insertedWindowDims := [0]
  scatterDimsToOperandDims := [0]
  indexVectorDim := 1
  wf := scatter_S90000x100_S2250000x1_S2250000x100_1_0_0_1_wf
def scatter_S90000_S2250000x1_S2250000_n_0_0_1 : ScatterDims S90000 S2250000x1 S2250000 where
  updateWindowDims := []
  insertedWindowDims := [0]
  scatterDimsToOperandDims := [0]
  indexVectorDim := 1
  wf := scatter_S90000_S2250000x1_S2250000_n_0_0_1_wf
def dot_S90000x100_S100x256_S90000x256_1_0_0_1_n_n : DotDims S90000x100 S100x256 S90000x256 where
  lhsContracting := [1]
  rhsContracting := [0]
  lhsNonContracting := [0]
  rhsNonContracting := [1]
  lhsBatch := []
  rhsBatch := []
  wf := dot_S90000x100_S100x256_S90000x256_1_0_0_1_n_n_wf
def gather_S90000x256_S204800x1_S204800x256_1_0_n_n_0_1_1256 : GatherDims S90000x256 S204800x1 S204800x256 where
  offsetDims := [1]
  collapsedSliceDims := [0]
  operandBatchingDims := []
  startIndicesBatchingDims := []
  startIndexMap := [0]
  indexVectorDim := 1
  sliceSizes := ![1, 256]
  wf := gather_S90000x256_S204800x1_S204800x256_1_0_n_n_0_1_1256_wf
def scatter_S8192x256_S204800x1_S204800x256_1_0_0_1 : ScatterDims S8192x256 S204800x1 S204800x256 where
  updateWindowDims := [1]
  insertedWindowDims := [0]
  scatterDimsToOperandDims := [0]
  indexVectorDim := 1
  wf := scatter_S8192x256_S204800x1_S204800x256_1_0_0_1_wf
def scatter_S8192_S204800x1_S204800_n_0_0_1 : ScatterDims S8192 S204800x1 S204800 where
  updateWindowDims := []
  insertedWindowDims := [0]
  scatterDimsToOperandDims := [0]
  indexVectorDim := 1
  wf := scatter_S8192_S204800x1_S204800_n_0_0_1_wf
def dot_S8192x256_S256x47_S8192x47_1_0_0_1_n_n : DotDims S8192x256 S256x47 S8192x47 where
  lhsContracting := [1]
  rhsContracting := [0]
  lhsNonContracting := [0]
  rhsNonContracting := [1]
  lhsBatch := []
  rhsBatch := []
  wf := dot_S8192x256_S256x47_S8192x47_1_0_0_1_n_n_wf

class Facts : Prop extends Facts₀ where

variable [Facts]
-- ==== Proof.LibScatterSet.lean ====
/-
  A scatter whose body returns the update, read at one index.

  The scatter runs through its updates in order; update j either lands at an operand index (its start, read signed
  off the index array, plus its window coordinate, when that is inside the operand on every axis) and replaces the
  entry there, or is dropped.  Read at one index i' the result is therefore decided by the updates that land at i':
  if none does, the entry is the operand's; if exactly one does, the entry is that update.  (With several the last
  one in the order would win; that case is not needed here.)  An update lands at i' exactly when start plus window
  coordinate equals i''s coordinate on every axis.

  For the dimension numbers of a point-wise write into a matrix — no window axes, both operand axes inserted, the
  index array [N, 2] holding one (row, column) pair per update, updates [N] — update n has start
  (idx(n, 0), idx(n, 1)) read signed and no window offset, so it lands at (a, b) exactly when idx(n, 0) = a and
  idx(n, 1) = b as integers.  Nothing here depends on a program.
-/
import Idealize.ShloMosaic.PureOps
import Idealize.ShloMosaic.Lib.ValueIdx

namespace Cert.ScatterSet

open Idealize.ShloMosaic Idealize.ShloMosaic.ValueIdx

section Fold

variable {ι β γ : Type}

/-- A left fold of steps that each either overwrite the entry at `i'` (when `P n`) or leave it: when no step of the
    list overwrites it, the entry is the initial one. -/
theorem foldl_apply_of_none (step : (γ → β) → ι → (γ → β)) (P : ι → Prop) (i' : γ)
    (hneg : ∀ r n, ¬ P n → step r n i' = r i') :
    ∀ (l : List ι) (x : γ → β), (∀ n ∈ l, ¬ P n) → l.foldl step x i' = x i'
  | [], _, _ => rfl
  | a :: l, x, h => by
    rw [List.foldl_cons, foldl_apply_of_none step P i' hneg l (step x a) fun n hn => h n (List.mem_cons_of_mem _ hn),
      hneg _ _ (h a (List.mem_cons.2 (Or.inl rfl)))]

/-- When exactly one member `n0` of the list overwrites the entry at `i'`, the entry ends as what `n0` wrote. -/
theorem foldl_apply_of_unique (step : (γ → β) → ι → (γ → β)) (P : ι → Prop) (v : ι → β) (i' : γ)
    (hpos : ∀ r n, P n → step r n i' = v n) (hneg : ∀ r n, ¬ P n → step r n i' = r i') (n0 : ι) (hP : P n0) :
    ∀ (l : List ι) (x : γ → β), n0 ∈ l → (∀ n ∈ l, P n → n = n0) → l.foldl step x i' = v n0
  | [], _, h, _ => nomatch h
  | a :: l, x, hmem, huniq => by
    rw [List.foldl_cons]
    by_cases hl : n0 ∈ l
    · exact foldl_apply_of_unique step P v i' hpos hneg n0 hP l (step x a) hl fun n hn => huniq n (List.mem_cons_of_mem _ hn)
    · have ha : a = n0 := by
        rcases List.mem_cons.1 hmem with h | h
        · exact h.symm
        · exact absurd h hl
      rw [foldl_apply_of_none step P i' hneg l (step x a)
        (fun n hn hp => hl (huniq n (List.mem_cons_of_mem _ hn) hp ▸ hn)), ha, hpos _ _ hP]

end Fold

section Scatter

variable {α : Type} {w : Nat} {s si u : Shape}

/-- One step of the scatter whose body returns the update, read at the index the update lands at. -/
theorem step_hit (d : ScatterDims s si u) (idx : IVec si w) (upd : u.Idx → α) (r : s.Idx → α) (n : Fin u.numel)
    (i' : s.Idx) (h : d.resultIdx? (u.rowMajor.symm n) idx = some i') :
    (match d.resultIdx? (u.rowMajor.symm n) idx with
      | some i => fun i' => if i' = i then (fun (_ : α) b => b) (r i) (upd (u.rowMajor.symm n)) else r i'
      | none => r) i' = upd (u.rowMajor.symm n) := by
  rw [h]; simp

/-- One step of the scatter, read at an index the update does not land at. -/
theorem step_miss (d : ScatterDims s si u) (idx : IVec si w) (upd : u.Idx → α) (r : s.Idx → α) (n : Fin u.numel)
    (i' : s.Idx) (h : ¬ d.resultIdx? (u.rowMajor.symm n) idx = some i') :
    (match d.resultIdx? (u.rowMajor.symm n) idx with
      | some i => fun i' => if i' = i then (fun (_ : α) b => b) (r i) (upd (u.rowMajor.symm n)) else r i'
      | none => r) i' = r i' := by
  cases hres : d.resultIdx? (u.rowMajor.symm n) idx with
  | none => rfl
  | some i =>
    have hi : ¬ i' = i := fun e => h (by rw [hres, e])
    simp [hi]

/-- No update lands at `i'`: the scatter leaves the operand's entry. -/
theorem scatter_miss (d : ScatterDims s si u) (x : s.Idx → α) (idx : IVec si w) (upd : u.Idx → α) (i' : s.Idx)
    (h : ∀ j : u.Idx, d.resultIdx? j idx ≠ some i') : Host.scatter d (fun _ b => b) x idx upd i' = x i' := by
  unfold Host.scatter
  exact foldl_apply_of_none _ (fun n => d.resultIdx? (u.rowMajor.symm n) idx = some i') i'
    (fun r n => step_miss d idx upd r n i') _ x (fun n _ => h _)

/-- Exactly one update `j0` lands at `i'`: the scatter's entry there is that update. -/
theorem scatter_hit (d : ScatterDims s si u) (x : s.Idx → α) (idx : IVec si w) (upd : u.Idx → α) (i' : s.Idx)
    (j0 : u.Idx) (h0 : d.resultIdx? j0 idx = some i') (huniq : ∀ j : u.Idx, d.resultIdx? j idx = some i' → j = j0) :
    Host.scatter d (fun _ b => b) x idx upd i' = upd j0 := by
  unfold Host.scatter
  refine (foldl_apply_of_unique _ (fun n => d.resultIdx? (u.rowMajor.symm n) idx = some i')
    (fun n => upd (u.rowMajor.symm n)) i' (fun r n => step_hit d idx upd r n i') (fun r n => step_miss d idx upd r n i')
    (u.rowMajor j0) ?_ (List.finRange u.numel) x (List.mem_finRange _) ?_).trans
    (congrArg upd (Equiv.symm_apply_apply _ _))
  · show d.resultIdx? (u.rowMajor.symm (u.rowMajor j0)) idx = some i'
    rw [Equiv.symm_apply_apply]; exact h0
  · intro n _ hn
    have := huniq _ hn
    rw [← this, Equiv.apply_symm_apply]

end Scatter

section ResultIdx

variable {w : Nat} {s si u : Shape}

/-- An update lands at `i'` exactly when, on every axis, its start plus its window coordinate is `i'`'s coordinate. -/
theorem resultIdx?_eq_some_iff_forall (d : ScatterDims s si u) (j : u.Idx) (idx : IVec si w) (i' : s.Idx) :
    d.resultIdx? j idx = some i' ↔ ∀ a, d.start j idx a + d.window j a = ((i' a).val : Int) := by
  unfold ScatterDims.resultIdx?
  constructor
  · intro h a
    split at h
    · rename_i hin
      have h1 := congrArg Fin.val (congrFun (Option.some.inj h) a)
      have h2 := (hin a).1
      simp only at h1
      omega
    · exact absurd h (by simp)
  · intro h
    have hin : ∀ a, 0 ≤ d.start j idx a + d.window j a ∧ d.start j idx a + d.window j a < s.size a := fun a => by
      have := (i' a).isLt
      rw [h a]; omega
    rw [dif_pos hin]
    congr 1
    funext a
    apply Fin.ext
    show (d.start j idx a + d.window j a).toNat = (i' a).val
    rw [h a]; simp

end ResultIdx

section Pairs

variable {w R Cn N : Nat}

/-- Update n reads component c of its start at (n, c) of the index array. -/
theorem siIdx_eq (wf) (j : (⟨1, ![N]⟩ : Shape).Idx) (c : Fin 2) :
    ScatterDims.siIdx (s := ⟨2, ![R, Cn]⟩) (si := ⟨2, ![N, 2]⟩) (u := ⟨1, ![N]⟩) ⟨[], [0, 1], [0, 1], 1, wf⟩ j c = ix2 (j 0) c := by
  funext b
  match b with
  | ⟨0, _⟩ => rfl
  | ⟨1, _⟩ => rfl

/-- Its start on operand axis a is the word at (n, a), read signed. -/
theorem start_eq (wf) (idx : IVec ⟨2, ![N, 2]⟩ w) (j : (⟨1, ![N]⟩ : Shape).Idx) (a : Fin 2) :
    ScatterDims.start (s := ⟨2, ![R, Cn]⟩) (si := ⟨2, ![N, 2]⟩) (u := ⟨1, ![N]⟩) ⟨[], [0, 1], [0, 1], 1, wf⟩ j idx a
      = (idx (ix2 (j 0) a)).toInt := by
  match a with
  | ⟨0, _⟩ =>
    unfold ScatterDims.start
    exact (dif_pos (List.mem_cons.2 (Or.inl rfl))).trans (congrArg (fun k => (idx k).toInt) (siIdx_eq wf j _))
  | ⟨1, _⟩ =>
    unfold ScatterDims.start
    exact (dif_pos (List.mem_cons.2 (Or.inr (List.mem_cons.2 (Or.inl rfl))))).trans
      (congrArg (fun k => (idx k).toInt) (siIdx_eq wf j _))

/-- Both operand axes are inserted: there is no window offset. -/
theorem window_eq (wf) (j : (⟨1, ![N]⟩ : Shape).Idx) (a : Fin 2) :
    ScatterDims.window (s := ⟨2, ![R, Cn]⟩) (si := ⟨2, ![N, 2]⟩) (u := ⟨1, ![N]⟩) ⟨[], [0, 1], [0, 1], 1, wf⟩ j a = 0 := by
  unfold ScatterDims.window
  refine dif_neg ?_
  match a with
  | ⟨0, _⟩ => simp [ScatterDims.sKept, Shape.kept]
  | ⟨1, _⟩ => simp [ScatterDims.sKept, Shape.kept]

/-- Update n lands at (a, b) exactly when its row word is a and its column word is b, as integers. -/
theorem resultIdx?_eq_some_iff (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (idx : IVec ⟨2, ![N, 2]⟩ w) (j : (⟨1, ![N]⟩ : Shape).Idx)
    (i' : (⟨2, ![R, Cn]⟩ : Shape).Idx) :
    d.resultIdx? j idx = some i' ↔
      (idx (ix2 (j 0) 0)).toInt = ((i' 0).val : Int) ∧ (idx (ix2 (j 0) 1)).toInt = ((i' 1).val : Int) := by
  obtain ⟨uw, iw, sd, iv, wf⟩ := d
  dsimp only at h1 h2 h3 h4
  subst h1 h2 h3 h4
  rw [resultIdx?_eq_some_iff_forall, Fin.forall_fin_two, start_eq, start_eq, window_eq, window_eq]
  simp

end Pairs

section PairsAt

variable {α : Type} {w R Cn N : Nat}

/-- A point-wise write into a matrix, read where exactly one update's (row, column) pair points. -/
theorem scatter_pairs_hit (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx) (n0 : Fin N)
    (hr : (idx (ix2 n0 0)).toInt = ((i' 0).val : Int)) (hc : (idx (ix2 n0 1)).toInt = ((i' 1).val : Int))
    (huniq : ∀ n : Fin N, (idx (ix2 n 0)).toInt = ((i' 0).val : Int) → (idx (ix2 n 1)).toInt = ((i' 1).val : Int) →
      n = n0) :
    Host.scatter d (fun _ b => b) x idx upd i' = upd (ix1 n0) := by
  refine scatter_hit d x idx upd i' (ix1 n0) ((resultIdx?_eq_some_iff d h1 h2 h3 h4 idx (ix1 n0) i').2 ⟨hr, hc⟩) ?_
  intro j hj
  obtain ⟨hjr, hjc⟩ := (resultIdx?_eq_some_iff d h1 h2 h3 h4 idx j i').1 hj
  exact (eq_ix1 j).trans (congrArg (fun k : Fin N => ix1 k) (huniq (j 0) hjr hjc))

/-- A point-wise write into a matrix, read where no update's (row, column) pair points. -/
theorem scatter_pairs_miss (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx)
    (h : ∀ n : Fin N, (idx (ix2 n 0)).toInt = ((i' 0).val : Int) → ¬ (idx (ix2 n 1)).toInt = ((i' 1).val : Int)) :
    Host.scatter d (fun _ b => b) x idx upd i' = x i' := by
  refine scatter_miss d x idx upd i' fun j hj => ?_
  obtain ⟨hjr, hjc⟩ := (resultIdx?_eq_some_iff d h1 h2 h3 h4 idx j i').1 hj
  exact h (j 0) hjr hjc

end PairsAt

end Cert.ScatterSet
-- ==== Proof.LibRealEntries.lean ====
/-
  Finite sums and products of extended reals that are real numbers.

  An extended real is here called real when it is the coercion of a real number. Real entries are closed under
  products, sums, finite sums and the logistic function; the coercion of a finite sum of reals is the sum of the
  coercions; and a real factor moves across a finite sum of real entries, (∑ᵢ fᵢ) · c = ∑ᵢ fᵢ · c — a step that is
  not a law of the extended reals in general: with ∞ + (−∞) = −∞ there, (∞ + (−∞)) · (−1) = ∞ while
  ∞ · (−1) + (−∞) · (−1) = −∞. Nothing here depends on a program.
-/
import Idealize.ShloMosaic.PureOps.Ideal
import Mathlib.Algebra.BigOperators.Fin

noncomputable section

namespace Cert.RealEntries

open Idealize.ShloMosaic

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The logistic function of a real number is a real number. -/
theorem IsReal.logistic {x : EReal} (hx : IsReal x) : IsReal (Ideal.logistic x) := by
  obtain ⟨a, rfl⟩ := hx
  exact ⟨_, Ideal.logistic_coe a⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))

/-- A real factor moves across a finite sum of real numbers. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨b, rfl⟩ := hc
  induction s using Finset.induction_on with
  | empty => simp
  | insert i s hi ih =>
    rw [Finset.sum_insert hi, Finset.sum_insert hi, ← ih fun j hj => hf j (Finset.mem_insert_of_mem hj)]
    obtain ⟨a, ha⟩ := hf i (Finset.mem_insert_self i s)
    obtain ⟨t, ht⟩ := IsReal.sum s f fun j hj => hf j (Finset.mem_insert_of_mem hj)
    rw [ha, ht, ← EReal.coe_add, ← EReal.coe_mul, ← EReal.coe_mul, ← EReal.coe_mul, ← EReal.coe_add, add_mul]

end Cert.RealEntries

end
-- ==== Proof.LibSegmentSum.lean ====
/-
  A segment sum, read at one index, and its linearity.

  A segment sum takes E updates (edges), each carrying a segment id, and adds every update into the operand entry
  (or row) its id names.  As a scatter whose body adds, over a start-index array of shape [E, 1], update e has its
  start on the operand's first axis at the word (e, 0) of the index array, read signed; an update whose id is
  outside the operand is dropped.  At the ideal (extended-real) values the scatter's entry is the operand's entry
  plus the exact sum of the updates that land on it, so read at one index n (or (n, k)) the result is

      x n + ∑ over the edges e with id(e) = n of upd e        (a vector of E updates into N entries),
      x (n, k) + ∑ over the edges e with id(e) = n of upd (e, k)   (E rows of width C into N rows).

  An update lands on an entry exactly when, on every operand axis, its start plus its window coordinate is the
  entry's coordinate.  For a vector there is no window axis: update e lands at n exactly when id(e) = n.  For rows
  the second axis is a window axis with start 0: update (e, c) lands at (n, k) exactly when id(e) = n and c = k.

  Linearity: over real entries, ∑ₑ ((∑ₖ a(e,k) · w(k)) + c) = (∑ₖ (∑ₑ a(e,k)) · w(k)) + (∑ₑ 1) · c.  A real factor
  moves across a finite sum of real entries; that is not a law of the extended reals in general.  Nothing here
  depends on a program.
-/
import Idealize.ShloMosaic.PureOps
import Idealize.ShloMosaic.PureOps.Ideal
import Idealize.ShloMosaic.Lib.ValueIdx
import Mathlib.Algebra.BigOperators.Fin
import proofs.«140910_j73993696576014_2_alg».proof.Proof.LibScatterSet
import proofs.«140910_j73993696576014_2_alg».proof.Proof.LibRealEntries

noncomputable section
namespace Cert.SegmentSum
open Idealize.ShloMosaic Idealize.ShloMosaic.ValueIdx Cert.RealEntries

/-- The updates (edges) whose segment id — the word at (e, 0) of the start-index array, read signed — is n. -/
def edgesAt {E N w : Nat} (idx : IVec ⟨2, ![E, 1]⟩ w) (n : Fin N) : Finset (Fin E) :=
  Finset.univ.filter fun e => (idx (ix2 e (0 : Fin 1))).toInt = ((n.val : Nat) : Int)

/-- Membership in the edges of segment n: the edge's id, read signed, is n. -/
theorem mem_edgesAt {E N w : Nat} (idx : IVec ⟨2, ![E, 1]⟩ w) (n : Fin N) (e : Fin E) :
    e ∈ edgesAt idx n ↔ (idx (ix2 e (0 : Fin 1))).toInt = ((n.val : Nat) : Int) := by
  unfold edgesAt
  simp

section Vec

variable {w E N : Nat}

/-- Update e reads the one component of its start at (e, 0) of the index array. -/
theorem siIdx_vec (wf) (j : (⟨1, ![E]⟩ : Shape).Idx) (c : Fin 1) :
    ScatterDims.siIdx (s := ⟨1, ![N]⟩) (si := ⟨2, ![E, 1]⟩) (u := ⟨1, ![E]⟩) ⟨[], [0], [0], 1, wf⟩ j c = ix2 (j 0) c := by
  funext b
  match b with
  | ⟨0, _⟩ => rfl
  | ⟨1, _⟩ => rfl

/-- Its start on the operand's one axis is the word at (e, 0), read signed. -/
theorem start_vec (wf) (idx : IVec ⟨2, ![E, 1]⟩ w) (j : (⟨1, ![E]⟩ : Shape).Idx) (a : Fin 1) :
    ScatterDims.start (s := ⟨1, ![N]⟩) (si := ⟨2, ![E, 1]⟩) (u := ⟨1, ![E]⟩) ⟨[], [0], [0], 1, wf⟩ j idx a
      = (idx (ix2 (j 0) (0 : Fin 1))).toInt := by
  match a with
  | ⟨0, _⟩ =>
    unfold ScatterDims.start
    exact (dif_pos (List.mem_cons.2 (Or.inl rfl))).trans (congrArg (fun k => (idx k).toInt) (siIdx_vec wf j _))

/-- The operand's one axis is inserted: there is no window offset. -/
theorem window_vec (wf) (j : (⟨1, ![E]⟩ : Shape).Idx) (a : Fin 1) :
    ScatterDims.window (s := ⟨1, ![N]⟩) (si := ⟨2, ![E, 1]⟩) (u := ⟨1, ![E]⟩) ⟨[], [0], [0], 1, wf⟩ j a = 0 := by
  unfold ScatterDims.window
  refine dif_neg ?_
  match a with
  | ⟨0, _⟩ => simp [ScatterDims.sKept, Shape.kept]

/-- Update e lands at entry i' exactly when its id is i', as integers. -/
theorem resultIdx?_vec_iff (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (j : (⟨1, ![E]⟩ : Shape).Idx)
    (i' : (⟨1, ![N]⟩ : Shape).Idx) :
    d.resultIdx? j idx = some i' ↔ (idx (ix2 (j 0) (0 : Fin 1))).toInt = ((i' 0).val : Int) := by
  obtain ⟨uw, iw, sd, iv, wf⟩ := d
  dsimp only at h1 h2 h3 h4
  subst h1 h2 h3 h4
  rw [Cert.ScatterSet.resultIdx?_eq_some_iff_forall, Fin.forall_fin_one, start_vec, window_vec]
  simp

end Vec

section Rows

variable {w E N C : Nat}

/-- Update (e, c) reads the one component of its start at (e, 0) of the index array. -/
theorem siIdx_rows (wf) (j : (⟨2, ![E, C]⟩ : Shape).Idx) (c : Fin 1) :
    ScatterDims.siIdx (s := ⟨2, ![N, C]⟩) (si := ⟨2, ![E, 1]⟩) (u := ⟨2, ![E, C]⟩) ⟨[1], [0], [0], 1, wf⟩ j c = ix2 (j 0) c := by
  funext b
  match b with
  | ⟨0, _⟩ => rfl
  | ⟨1, _⟩ => rfl

/-- Its start on the operand's first axis is the word at (e, 0), read signed. -/
theorem start_rows_zero (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 0
      = (idx (ix2 (j 0) (0 : Fin 1))).toInt := by
  unfold ScatterDims.start
  exact (dif_pos (List.mem_cons.2 (Or.inl rfl))).trans (congrArg (fun k => (idx k).toInt) (siIdx_rows wf j _))

/-- Its start on the operand's second axis, which the map does not name, is 0. -/
theorem start_rows_one (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 1 = 0 := by
  unfold ScatterDims.start
  refine dif_neg ?_
  simp

/-- The operand's first axis is inserted: no window offset there. -/
theorem window_rows_zero (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 0 = 0 := by
  unfold ScatterDims.window
  refine dif_neg ?_
  simp [ScatterDims.sKept, Shape.kept]

/-- On the operand's second axis the window coordinate is the update's column. -/
theorem window_rows_one (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 1 = (j 1).val := by
  unfold ScatterDims.window
  have hmem : (1 : Fin 2) ∈ ScatterDims.sKept (s := ⟨2, ![N, C]⟩) (si := ⟨2, ![E, 1]⟩) (u := ⟨2, ![E, C]⟩) ⟨[1], [0], [0], 1, wf⟩ := by
    simp [ScatterDims.sKept, Shape.kept]
  exact (dif_pos hmem).trans rfl

/-- Update (e, c) lands at (n, k) exactly when its id is n, as integers, and c = k. -/
theorem resultIdx?_rows_iff (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (j : (⟨2, ![E, C]⟩ : Shape).Idx)
    (i' : (⟨2, ![N, C]⟩ : Shape).Idx) :
    d.resultIdx? j idx = some i' ↔
      (idx (ix2 (j 0) (0 : Fin 1))).toInt = ((i' 0).val : Int) ∧ (j 1).val = (i' 1).val := by
  obtain ⟨uw, iw, sd, iv, wf⟩ := d
  dsimp only at h1 h2 h3 h4
  subst h1 h2 h3 h4
  rw [Cert.ScatterSet.resultIdx?_eq_some_iff_forall, Fin.forall_fin_two, start_rows_zero, start_rows_one,
    window_rows_zero, window_rows_one]
  simp

end Rows

/-- A segment sum of a vector: dimension numbers update_window_dims = [], inserted_window_dims = [0], scatter_dims_to_operand_dims = [0], index_vector_dim = 1. -/
theorem scatterAdd_vec_apply {E N w : Nat} (d : ScatterDims ⟨1, ![N]⟩ ⟨2, ![E, 1]⟩ ⟨1, ![E]⟩)
    (h1 : d.updateWindowDims = []) (h2 : d.insertedWindowDims = [0]) (h3 : d.scatterDimsToOperandDims = [0]) (h4 : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n) = x (ix1 n) + ∑ e ∈ edgesAt idx n, upd (ix1 e) := by
  unfold Ideal.hostScatterAdd
  congr 1
  refine Finset.sum_nbij' (fun j => (j 0 : Fin E)) (fun e => ix1 e) ?_ ?_ ?_ ?_ ?_
  · intro j hj
    rw [Finset.mem_filter] at hj
    exact (mem_edgesAt idx n _).2 ((resultIdx?_vec_iff d h1 h2 h3 h4 idx j (ix1 n)).1 hj.2)
  · intro e he
    rw [Finset.mem_filter]
    exact ⟨Finset.mem_univ _, (resultIdx?_vec_iff d h1 h2 h3 h4 idx (ix1 e) (ix1 n)).2 ((mem_edgesAt idx n e).1 he)⟩
  · intro j _
    exact (eq_ix1 j).symm
  · intro e _
    rfl
  · intro j _
    exact congrArg upd (eq_ix1 j)

/-- A segment sum of the rows of a matrix: update_window_dims = [1], inserted_window_dims = [0], scatter_dims_to_operand_dims = [0], index_vector_dim = 1. -/
theorem scatterAdd_rows_apply {E N C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0]) (h4 : d.indexVectorDim = 1)
    (x : (⟨2, ![N, C]⟩ : Shape).Idx → EReal) (idx : IVec ⟨2, ![E, 1]⟩ w) (upd : (⟨2, ![E, C]⟩ : Shape).Idx → EReal) (n : Fin N) (k : Fin C) :
    Ideal.hostScatterAdd d x idx upd (ix2 n k) = x (ix2 n k) + ∑ e ∈ edgesAt idx n, upd (ix2 e k) := by
  unfold Ideal.hostScatterAdd
  congr 1
  refine Finset.sum_nbij' (fun j => (j 0 : Fin E)) (fun e => ix2 e k) ?_ ?_ ?_ ?_ ?_
  · intro j hj
    rw [Finset.mem_filter] at hj
    exact (mem_edgesAt idx n _).2 ((resultIdx?_rows_iff d h1 h2 h3 h4 idx j (ix2 n k)).1 hj.2).1
  · intro e he
    rw [Finset.mem_filter]
    exact ⟨Finset.mem_univ _,
      (resultIdx?_rows_iff d h1 h2 h3 h4 idx (ix2 e k) (ix2 n k)).2 ⟨(mem_edgesAt idx n e).1 he, rfl⟩⟩
  · intro j hj
    rw [Finset.mem_filter] at hj
    have hk : (j 1 : Fin C) = k := Fin.ext ((resultIdx?_rows_iff d h1 h2 h3 h4 idx j (ix2 n k)).1 hj.2).2
    exact (congrArg (fun c : Fin C => ix2 (j 0 : Fin E) c) hk).symm.trans (eq_ix2 j).symm
  · intro e _
    rfl
  · intro j hj
    rw [Finset.mem_filter] at hj
    have hk : (j 1 : Fin C) = k := Fin.ext ((resultIdx?_rows_iff d h1 h2 h3 h4 idx j (ix2 n k)).1 hj.2).2
    exact congrArg upd ((eq_ix2 j).trans (congrArg (fun c : Fin C => ix2 (j 0 : Fin E) c) hk))

/-- Linearity of a segment sum over real entries: summing (row · weights + bias) over a set of edges is (summed rows) · weights + (number of edges, as a sum of ones) · bias. -/
theorem segment_linear {ι κ : Type*} [Fintype κ] (s : Finset ι) (a : ι → κ → EReal) (wt : κ → EReal) (c : EReal)
    (ha : ∀ e k, IsReal (a e k)) (hw : ∀ k, IsReal (wt k)) (hc : IsReal c) :
    ∑ e ∈ s, ((∑ k, a e k * wt k) + c) = (∑ k, (∑ e ∈ s, a e k) * wt k) + (∑ _e ∈ s, (1 : EReal)) * c := by
  rw [Finset.sum_add_distrib, Finset.sum_comm]
  congr 1
  · exact Finset.sum_congr rfl fun k _ => (sum_mul_of_isReal s (fun e => a e k) (wt k) (fun e _ => ha e k) (hw k)).symm
  · rw [sum_mul_of_isReal s (fun _ => (1 : EReal)) c (fun _ _ => ⟨1, EReal.coe_one.symm⟩) hc]
    exact Finset.sum_congr rfl fun _ _ => (one_mul c).symm

end Cert.SegmentSum
end
-- ==== Proof.LibGatherRows.lean ====
/-
  A row gather read at an index. What `x[idx]` of a table `x : [N, C]` at an integer vector lowers to: a gather along
  axis 0 with whole rows as slices (offset axis 1, axis 0 collapsed, slice sizes `[1, C]`) over the indices laid out as a
  column `[R, 1]`. Result entry `(f, k)` is the table's entry `(row f, k)`, where `row f` is the start index at `f` read as
  a signed integer and clamped into `[0, N − 1]`. So the gather selects rows by a function of the indices alone and
  keeps columns: it commutes with anything done to the table row by row. Nothing here depends on a program.
-/
import Idealize.ShloMosaic.Lib.ValueIdx

namespace Cert.KernelIdeal.Hand

open Idealize.ShloMosaic Idealize.ShloMosaic.ValueIdx

section Rows
variable {α : Type}

/-- The dimension numbers of a row gather from a table `[N, C]` at start indices `[R, 1]` into `[R, C]`; their conditions
    `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row the gather reads for result row `f`: the start index there, signed, clamped into `[0, N − 1]`. -/
def rowOf {N R w : Nat} (hN : 0 < N) (idx : IVec ⟨2, ![R, 1]⟩ w) (f : Fin R) : Fin N :=
  ⟨min (idx (ix2 f (0 : Fin 1))).toInt.toNat (N - 1), by omega⟩

/-- THE ROW GATHER READ AT `(f, k)`: the table at `(rowOf f, k)`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (f : Fin R) (k : Fin C) :
    Host.gather (rowDims N R C wf) x idx (ix2 f k) = x (ix2 (rowOf hN idx f) k) := by
  unfold Host.gather
  congr 1
  funext a
  refine Fin.ext ?_
  match a with
  | ⟨0, _⟩ =>
    show (rowDims N R C wf).start (ix2 f k) idx 0 + (rowDims N R C wf).batchCoord (ix2 f k) 0
      + (rowDims N R C wf).offCoord (ix2 f k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 f k) ⟨List.idxOf (0 : Fin 2) (rowDims N R C wf).startIndexMap,
        List.idxOf_lt_length_iff.2 (List.mem_singleton.mpr rfl)⟩ = ix2 f (0 : Fin 1) := by
      funext b; refine Fin.ext ?_
      match b with
      | ⟨0, _⟩ => rfl
      | ⟨1, _⟩ => rfl
    rw [hsi]
    rfl
  | ⟨1, _⟩ =>
    show (rowDims N R C wf).start (ix2 f k) idx 1 + (rowDims N R C wf).batchCoord (ix2 f k) 1
      + (rowDims N R C wf).offCoord (ix2 f k) 1 = _
    rw [GatherDims.batchCoord_eq_zero _ _ _ List.not_mem_nil]
    unfold GatherDims.start
    have h10 : (1 : Fin 2) ≠ 0 := by decide
    rw [dif_neg (show (1 : Fin 2) ∉ (rowDims N R C wf).startIndexMap from
      fun h => absurd (List.mem_singleton.mp h) h10)]
    have hk : (1 : Fin 2) ∈ (rowDims N R C wf).sKept :=
      (GatherDims.mem_sKept _ _).mpr ⟨fun h => absurd (List.mem_singleton.mp h) h10, List.not_mem_nil⟩
    unfold GatherDims.offCoord
    rw [dif_pos hk]
    simp only [Nat.zero_add]
    rfl

end Rows

end Cert.KernelIdeal.Hand
-- ==== Proof.SageSpec.lean ====
/-
  The two-layer mean-aggregation graph convolution, entry by entry on the extended reals.

  A layer takes node features, an edge list (source and destination node of every edge) and three parameters. For a
  destination node n it sums the features of the sources of the edges that end at n, divides the sum by the number of
  those edges (at least one), and returns (own features) · W_self + (that mean) · W_neigh + b. The edge list is read
  the way a gather and a scatter-add read it: the source of edge e is the row the start index at e names, clamped
  into the table; the edges that end at n are those whose destination word, read signed, is n.

  Two spellings of one layer are stated. `layer` contracts the mean against W_neigh after the sum over the edges;
  `layerP` sums over the edges rows already contracted against W_neigh. Over real entries they agree, because a real
  factor moves across a finite sum of reals and two finite sums commute; that is not a law of the extended reals in
  general, which is where finiteness of the inputs is used. Nothing here depends on a program.
-/
import Idealize.ShloMosaic.PureOps.Ideal
import Idealize.ShloMosaic.PureOps.Ideal.Laws
import Idealize.ShloMosaic.Lib.ValueIdx
import proofs.«140910_j73993696576014_2_alg».proof.Proof.LibSegmentSum
import proofs.«140910_j73993696576014_2_alg».proof.Proof.LibGatherRows
import proofs.«140910_j73993696576014_2_alg».proof.Proof.LibRealEntries

noncomputable section

namespace Cert.Sage

open Idealize.ShloMosaic Idealize.ShloMosaic.ValueIdx Cert.RealEntries Cert.SegmentSum
open Cert.KernelIdeal.Hand (rowOf)

/-- The f32 words of 0.0 and 1.0 at the ideal values. -/
abbrev zero32 : EReal := Ideal.ofBits .f32 0x00000000#32
abbrev one32 : EReal := Ideal.ofBits .f32 0x3F800000#32

variable {E N K : Nat}

/-- A segment sum started from the zero word: the sum of g over the edges that end at n. -/
def segSum (dst : IVec ⟨2, ![E, 1]⟩ 32) (g : Fin E → EReal) (n : Fin N) : EReal :=
  zero32 + ∑ e ∈ edgesAt dst n, g e

/-- The divisor of the mean: the number of edges that end at n, at least one. -/
def meanDen (dst : IVec ⟨2, ![E, 1]⟩ 32) (n : Fin N) : EReal :=
  max (segSum dst (fun _ => one32) n) one32

/-- One entry of a layer, the mean contracted against the neighbour weights after the sum over the edges:
    own · ws + (Σ_edges nb / count) · wn + b. -/
def layer (hd : Fin K → EReal) (nb : Fin E → Fin K → EReal) (dst : IVec ⟨2, ![E, 1]⟩ 32) (n : Fin N)
    (ws wn : Fin K → EReal) (b : EReal) : EReal :=
  ((∑ k, hd k * ws k) + ∑ k, Ideal.div (segSum dst (fun e => nb e k) n) (meanDen dst n) * wn k) + b

/-- The same entry with every source row contracted against the neighbour weights before the sum over the edges:
    own · ws + (Σ_edges (nb · wn)) / count + b. -/
def layerP (hd : Fin K → EReal) (nb : Fin E → Fin K → EReal) (dst : IVec ⟨2, ![E, 1]⟩ 32) (n : Fin N)
    (ws wn : Fin K → EReal) (b : EReal) : EReal :=
  ((∑ k, hd k * ws k) + Ideal.div (segSum dst (fun e => ∑ k, nb e k * wn k) n) (meanDen dst n)) + b

/-- Node r of the first 90000 as a row of the 600000-row feature table. -/
def up0 (r : Fin 90000) : Fin 600000 := ⟨r.val, by omega⟩
/-- Node i of the first 8192 as a row of the 90000-row hidden table. -/
def up1 (i : Fin 8192) : Fin 90000 := ⟨i.val, by omega⟩

/-- The hidden layer: layer 0 on the input features, then the maximum with zero. -/
def hidden (x : (⟨2, ![600000, 100]⟩ : Shape).Idx → EReal) (ws wn : (⟨2, ![100, 256]⟩ : Shape).Idx → EReal)
    (b : (⟨1, ![256]⟩ : Shape).Idx → EReal) (src dst : IVec ⟨2, ![2250000, 1]⟩ 32) (r : Fin 90000) (c : Fin 256) : EReal :=
  max (layer (fun k => x (ix2 (up0 r) k)) (fun e k => x (ix2 (rowOf (N := 600000) (by decide) src e) k)) dst r
    (fun k => ws (ix2 k c)) (fun k => wn (ix2 k c)) (b (ix1 c))) zero32

/-- The output layer over a hidden table h, contracted after the sum. -/
def outR (h : Fin 90000 → Fin 256 → EReal) (ws wn : (⟨2, ![256, 47]⟩ : Shape).Idx → EReal)
    (b : (⟨1, ![47]⟩ : Shape).Idx → EReal) (src dst : IVec ⟨2, ![204800, 1]⟩ 32) (i : Fin 8192) (j : Fin 47) : EReal :=
  layer (fun k => h (up1 i) k) (fun e k => h (rowOf (N := 90000) (by decide) src e) k) dst i
    (fun k => ws (ix2 k j)) (fun k => wn (ix2 k j)) (b (ix1 j))

/-- The output layer over a hidden table h, contracted before the sum. -/
def outK (h : Fin 90000 → Fin 256 → EReal) (ws wn : (⟨2, ![256, 47]⟩ : Shape).Idx → EReal)
    (b : (⟨1, ![47]⟩ : Shape).Idx → EReal) (src dst : IVec ⟨2, ![204800, 1]⟩ 32) (i : Fin 8192) (j : Fin 47) : EReal :=
  layerP (fun k => h (up1 i) k) (fun e k => h (rowOf (N := 90000) (by decide) src e) k) dst i
    (fun k => ws (ix2 k j)) (fun k => wn (ix2 k j)) (b (ix1 j))

end Cert.Sage

end
-- ==== Proof.RegionFns.lean ====
/-
  What each of the three kernels computes, as a function of whole arrays, entry by entry on the extended reals.

  The first kernel is a layer's combine step with the division by the edge count fused in: for row r and column c,
  max(own(r,·) · W_self(·,c) + (msgsum(r,·) / max(count(r), 1)) · W_neigh(·,c) + b(c), 0). The second is a plain matrix
  product. The third is the output layer's combine step over a neighbour term that is already contracted:
  own(i,·) · W_self(·,j) + msgsum(i,j) / max(count(i), 1) + b(j). Nothing here depends on a program.
-/
import proofs.«140910_j73993696576014_2_alg».proof.Proof.SageSpec

noncomputable section

namespace Cert.Sage

open Idealize.ShloMosaic Idealize.ShloMosaic.ValueIdx

/-- Entry (r, c) of the hidden layer's combine step. -/
def comb0At (a ms : (⟨2, ![90000, 100]⟩ : Shape).Idx → EReal) (d : (⟨2, ![90000, 1]⟩ : Shape).Idx → EReal)
    (ws wn : (⟨2, ![100, 256]⟩ : Shape).Idx → EReal) (bb : (⟨2, ![1, 256]⟩ : Shape).Idx → EReal)
    (r : Fin 90000) (c : Fin 256) : EReal :=
  max (((∑ k : Fin 100, a (ix2 r k) * ws (ix2 k c))
      + ∑ k : Fin 100, Ideal.div (ms (ix2 r k)) (max (d (ix2 r (0 : Fin 1))) one32) * wn (ix2 k c))
    + bb (ix2 (0 : Fin 1) c)) zero32

/-- Entry (r, j) of the projection of the hidden table. -/
def projAt (h : (⟨2, ![90000, 256]⟩ : Shape).Idx → EReal) (wn : (⟨2, ![256, 47]⟩ : Shape).Idx → EReal)
    (r : Fin 90000) (j : Fin 47) : EReal :=
  ∑ k : Fin 256, h (ix2 r k) * wn (ix2 k j)

/-- Entry (i, j) of the output layer's combine step over an already projected neighbour sum. -/
def comb1At (a : (⟨2, ![8192, 256]⟩ : Shape).Idx → EReal) (msp : (⟨2, ![8192, 47]⟩ : Shape).Idx → EReal)
    (d : (⟨2, ![8192, 1]⟩ : Shape).Idx → EReal) (ws : (⟨2, ![256, 47]⟩ : Shape).Idx → EReal)
    (bb : (⟨2, ![1, 47]⟩ : Shape).Idx → EReal) (i : Fin 8192) (j : Fin 47) : EReal :=
  ((∑ k : Fin 256, a (ix2 i k) * ws (ix2 k j))
      + Ideal.div (msp (ix2 i j)) (max (d (ix2 i (0 : Fin 1))) one32))
    + bb (ix2 (0 : Fin 1) j)

end Cert.Sage

end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.HostStretch.lean ====
/-
  The host operations around the three kernels, read entry by entry at the ideal values.

  Before the first kernel the program gathers the source rows of the feature table, segment-sums them by destination,
  counts the edges of every destination by a segment sum of ones, and takes the first 90000 rows of the table; the
  kernel's combine step applied to those arrays is the specification's hidden layer. Between the second and the third
  kernel the same operations run on the projected hidden table; the third kernel's combine step applied to them is the
  specification's output layer in its contract-before-the-sum spelling, whenever the projected table is the hidden table
  times the neighbour weights. A gather of rows reads the table at the row its start index names; a scatter-add from
  the zero splat reads as the zero word plus the sum over the edges that end there; a vector recast as a column or a row
  reads the vector; a slice of leading rows reads the same rows.
-/
import proofs.«140910_j73993696576014_2_alg».proof.KernelIdeal
import proofs.«140910_j73993696576014_2_alg».proof.Proof.Gen.KernelIdeal
import proofs.«140910_j73993696576014_2_alg».proof.Proof.RegionFns
import proofs.«140910_j73993696576014_2_alg».proof.Proof.LibSegmentSum
import proofs.«140910_j73993696576014_2_alg».proof.Proof.LibGatherRows
import proofs.«140910_j73993696576014_2_alg».proof.Proof.LibKeepdims
import Idealize.ShloMosaic.Lib.Pipeline.Value
import Idealize.ShloMosaic.Lib.ValueIdx
import Idealize.ShloMosaic.PureOps.Ideal.Laws

noncomputable section

namespace Cert.KernelIdeal.Stretch

open Idealize.ShloMosaic Idealize.ShloMosaic.ValueIdx Cert.KernelIdeal Cert.KernelIdeal.Facts₀ Cert.KernelIdeal.Facts
open Cert.SegmentSum Cert.KernelIdeal.Hand Cert.Sage

/-! ## General readings -/

/-- The splat of a scalar constant reads the constant's word everywhere. -/
theorem splat_apply {S : Shape} (h : S_.BroadcastsInDim S (![] : Fin 0 → Fin S.rank)) (w : BitVec 32) (p : S.Idx) :
    broadcastInDim S ![] h (constant (F := Ideal) S_ .f32 w) p = Ideal.ofBits .f32 w :=
  (broadcastInDim_apply _ h (constant (F := Ideal) S_ .f32 w) p (fun a => a.elim0) (fun a => a.elim0)).trans rfl

/-- A vector recast as one row reads, at (0, k), the vector at k. -/
theorem rowCast_apply {n : Nat} {α : Type} (b : (⟨1, ![n]⟩ : Shape).Idx → α) (h : (⟨1, ![n]⟩ : Shape).ShapeCasts ⟨2, ![1, n]⟩)
    (k : Fin n) : shapeCast ⟨2, ![1, n]⟩ b h (ix2 (0 : Fin 1) k) = b (ix1 k) :=
  shapeCast_apply b h (ix2 (0 : Fin 1) k) (ix1 k) (by
    rw [Shape.rowMajor_val_two, Shape.rowMajor_val_one]; show k.val = 0 * n + k.val; omega)

/-- The leading n rows of a table [N, c] read the same rows. -/
theorem headRows_apply {N n c : Nat} {α : Type} (x : (⟨2, ![N, c]⟩ : Shape).Idx → α)
    (h : (⟨2, ![N, c]⟩ : Shape).Slices ![0, 0] ⟨2, ![n, c]⟩) (i : Fin n) (hi : i.val < N) (k : Fin c) :
    extractStridedSlice ⟨2, ![n, c]⟩ ![0, 0] x h (ix2 i k) = x (ix2 (⟨i.val, hi⟩ : Fin N) k) :=
  extractStridedSlice_apply ![0, 0] x h (ix2 i k) (ix2 (⟨i.val, hi⟩ : Fin N) k) (fun a => match a with
    | ⟨0, _⟩ => by show i.val = 0 + i.val; omega
    | ⟨1, _⟩ => by show k.val = 0 + k.val; omega)

/-- At the ideal values the host's scatter-add is the exact one. -/
theorem scatterAdd_ideal {s si su : Shape} (d : ScatterDims s si su) (x : FVec Ideal s .f32) (idx : IVec si 32)
    (u : FVec Ideal su .f32) : Host.scatterAdd d x idx u = Ideal.hostScatterAdd d x idx u := rfl

/-! ## Before the first kernel -/

/-- The source column of layer 0: the source words, a negative one wrapped by the table's height, as a column. -/
def src0 (a7 : IVec S2250000 32) : IVec S2250000x1 32 :=
  broadcastInDim S2250000x1 ![0] bcast_S2250000_S2250000x1_0
    (select (cmpi .slt a7 (broadcastInDim S2250000 ![] bcast_S_S2250000 (constantI S_ 32 0#32)))
      (addi a7 (broadcastInDim S2250000 ![] bcast_S_S2250000 (constantI S_ 32 600000#32))) a7)

/-- The destination column of layer 0. -/
def dst0 (a8 : IVec S2250000 32) : IVec S2250000x1 32 :=
  broadcastInDim S2250000x1 ![0] bcast_S2250000_S2250000x1_0 a8

/-- The summed messages of layer 0: the gathered source rows, segment-summed by destination from the zero splat. -/
def msum0 (a0 : FVec Ideal S600000x100 .f32) (a7 a8 : IVec S2250000 32) : FVec Ideal S90000x100 .f32 :=
  Host.scatterAdd scatter_S90000x100_S2250000x1_S2250000x100_1_0_0_1
    (broadcastInDim S90000x100 ![] bcast_S_S90000x100 (constant S_ .f32 0x00000000#32)) (dst0 a8)
    (Host.gather gather_S600000x100_S2250000x1_S2250000x100_1_0_n_n_0_1_1100 a0 (src0 a7))

/-- The edge counts of layer 0: ones, segment-summed by destination from the zero splat. -/
def deg0 (a8 : IVec S2250000 32) : FVec Ideal S90000 .f32 :=
  Host.scatterAdd scatter_S90000_S2250000x1_S2250000_n_0_0_1
    (broadcastInDim S90000 ![] bcast_S_S90000 (constant S_ .f32 0x00000000#32)) (dst0 a8)
    (broadcastInDim S2250000 ![] bcast_S_S2250000 (constant S_ .f32 0x3F800000#32))

theorem msum0_apply (a0 : FVec Ideal S600000x100 .f32) (a7 a8 : IVec S2250000 32) (r : Fin 90000) (k : Fin 100) :
    msum0 a0 a7 a8 (ix2 r k)
      = zero32 + ∑ e ∈ edgesAt (dst0 a8) r, a0 (ix2 (rowOf (N := 600000) (by decide) (src0 a7) e) k) := by
  unfold msum0
  rw [scatterAdd_ideal]
  refine (scatterAdd_rows_apply (E := 2250000) (N := 90000) (C := 100) _ rfl rfl rfl rfl _ _ _ r k).trans ?_
  rw [splat_apply]
  refine congrArg (zero32 + ·) (Finset.sum_congr rfl fun e _ => ?_)
  exact gather_rows_apply (N := 600000) (R := 2250000) (C := 100) (by decide)
    gather_S600000x100_S2250000x1_S2250000x100_1_0_n_n_0_1_1100.wf a0 (src0 a7) e k

theorem deg0_apply (a8 : IVec S2250000 32) (r : Fin 90000) :
    deg0 a8 (ix1 r) = zero32 + ∑ _e ∈ edgesAt (dst0 a8) r, one32 := by
  unfold deg0
  rw [scatterAdd_ideal]
  refine (scatterAdd_vec_apply (E := 2250000) (N := 90000) _ rfl rfl rfl rfl _ _ _ r).trans ?_
  rw [splat_apply]
  exact congrArg (zero32 + ·) (Finset.sum_congr rfl fun e _ => splat_apply _ _ _)

/-- The first kernel's combine step on the arrays the host prepares is the specification's hidden layer. -/
theorem layer0_eq (a0 : FVec Ideal S600000x100 .f32) (a1 a2 : FVec Ideal S100x256 .f32) (a3 : FVec Ideal S256 .f32)
    (a7 a8 : IVec S2250000 32) (r : Fin 90000) (q : Fin 256) :
    comb0At (extractStridedSlice S90000x100 ![0, 0] a0 slices_S600000x100_S90000x100_0_0) (msum0 a0 a7 a8)
        (shapeCast S90000x1 (deg0 a8) shapeCasts_S90000_S90000x1) a1 a2 (shapeCast S1x256 a3 shapeCasts_S256_S1x256) r q
      = Cert.Sage.hidden a0 a1 a2 a3 (src0 a7) (dst0 a8) r q := by
  have e1 : ∀ k : Fin 100, extractStridedSlice S90000x100 ![0, 0] a0 slices_S600000x100_S90000x100_0_0 (ix2 r k)
      = a0 (ix2 (up0 r) k) := fun k => headRows_apply (N := 600000) (n := 90000) (c := 100) a0 _ r _ k
  have e2 : shapeCast S90000x1 (deg0 a8) shapeCasts_S90000_S90000x1 (ix2 r (0 : Fin 1)) = deg0 a8 (ix1 r) :=
    Cert.Lib.Keepdims.shapeCast_a_a1_apply (a := 90000) (deg0 a8) _ r 0
  have e3 : shapeCast S1x256 a3 shapeCasts_S256_S1x256 (ix2 (0 : Fin 1) q) = a3 (ix1 q) :=
    rowCast_apply (n := 256) a3 _ q
  unfold comb0At Cert.Sage.hidden layer meanDen segSum
  simp only [e1, e2, e3, msum0_apply, deg0_apply]

/-! ## Between the second and the third kernel -/

/-- The source column of layer 1. -/
def src1 (a9 : IVec S204800 32) : IVec S204800x1 32 :=
  broadcastInDim S204800x1 ![0] bcast_S204800_S204800x1_0
    (select (cmpi .slt a9 (broadcastInDim S204800 ![] bcast_S_S204800 (constantI S_ 32 0#32)))
      (addi a9 (broadcastInDim S204800 ![] bcast_S_S204800 (constantI S_ 32 90000#32))) a9)

/-- The destination column of layer 1. -/
def dst1 (a10 : IVec S204800 32) : IVec S204800x1 32 :=
  broadcastInDim S204800x1 ![0] bcast_S204800_S204800x1_0 a10

/-- The summed projected messages of layer 1. -/
def msum1 (p : FVec Ideal S90000x47 .f32) (a9 a10 : IVec S204800 32) : FVec Ideal S8192x47 .f32 :=
  Host.scatterAdd scatter_S8192x47_S204800x1_S204800x47_1_0_0_1
    (broadcastInDim S8192x47 ![] bcast_S_S8192x47 (constant S_ .f32 0x00000000#32)) (dst1 a10)
    (Host.gather gather_S90000x47_S204800x1_S204800x47_1_0_n_n_0_1_147 p (src1 a9))

/-- The edge counts of layer 1. -/
def deg1 (a10 : IVec S204800 32) : FVec Ideal S8192 .f32 :=
  Host.scatterAdd scatter_S8192_S204800x1_S204800_n_0_0_1
    (broadcastInDim S8192 ![] bcast_S_S8192 (constant S_ .f32 0x00000000#32)) (dst1 a10)
    (broadcastInDim S204800 ![] bcast_S_S204800 (constant S_ .f32 0x3F800000#32))

theorem msum1_apply (p : FVec Ideal S90000x47 .f32) (a9 a10 : IVec S204800 32) (i : Fin 8192) (j : Fin 47) :
    msum1 p a9 a10 (ix2 i j)
      = zero32 + ∑ e ∈ edgesAt (dst1 a10) i, p (ix2 (rowOf (N := 90000) (by decide) (src1 a9) e) j) := by
  unfold msum1
  rw [scatterAdd_ideal]
  refine (scatterAdd_rows_apply (E := 204800) (N := 8192) (C := 47) _ rfl rfl rfl rfl _ _ _ i j).trans ?_
  rw [splat_apply]
  refine congrArg (zero32 + ·) (Finset.sum_congr rfl fun e _ => ?_)
  exact gather_rows_apply (N := 90000) (R := 204800) (C := 47) (by decide)
    gather_S90000x47_S204800x1_S204800x47_1_0_n_n_0_1_147.wf p (src1 a9) e j

theorem deg1_apply (a10 : IVec S204800 32) (i : Fin 8192) :
    deg1 a10 (ix1 i) = zero32 + ∑ _e ∈ edgesAt (dst1 a10) i, one32 := by
  unfold deg1
  rw [scatterAdd_ideal]
  refine (scatterAdd_vec_apply (E := 204800) (N := 8192) _ rfl rfl rfl rfl _ _ _ i).trans ?_
  rw [splat_apply]
  exact congrArg (zero32 + ·) (Finset.sum_congr rfl fun e _ => splat_apply _ _ _)

/-- The third kernel's combine step on the arrays the host prepares from a hidden table h and a projected table p is
    the specification's output layer, contracted before the sum, whenever p is h times the neighbour weights. -/
theorem layer1_eq (h : FVec Ideal S90000x256 .f32) (p : FVec Ideal S90000x47 .f32) (a4 a5 : FVec Ideal S256x47 .f32)
    (a6 : FVec Ideal S47 .f32) (a9 a10 : IVec S204800 32) (hp : ∀ r j, p (ix2 r j) = projAt h a5 r j)
    (i : Fin 8192) (j : Fin 47) :
    comb1At (extractStridedSlice S8192x256 ![0, 0] h slices_S90000x256_S8192x256_0_0) (msum1 p a9 a10)
        (shapeCast S8192x1 (deg1 a10) shapeCasts_S8192_S8192x1) a4 (shapeCast S1x47 a6 shapeCasts_S47_S1x47) i j
      = outK (fun r q => h (ix2 r q)) a4 a5 a6 (src1 a9) (dst1 a10) i j := by
  have e1 : ∀ k : Fin 256, extractStridedSlice S8192x256 ![0, 0] h slices_S90000x256_S8192x256_0_0 (ix2 i k)
      = h (ix2 (up1 i) k) := fun k => headRows_apply (N := 90000) (n := 8192) (c := 256) h _ i _ k
  have e2 : shapeCast S8192x1 (deg1 a10) shapeCasts_S8192_S8192x1 (ix2 i (0 : Fin 1)) = deg1 a10 (ix1 i) :=
    Cert.Lib.Keepdims.shapeCast_a_a1_apply (a := 8192) (deg1 a10) _ i 0
  have e3 : shapeCast S1x47 a6 shapeCasts_S47_S1x47 (ix2 (0 : Fin 1) j) = a6 (ix1 j) :=
    rowCast_apply (n := 47) a6 _ j
  unfold comb1At outK layerP meanDen segSum
  simp only [e1, e2, e3, msum1_apply, deg1_apply, hp, projAt]

end Cert.KernelIdeal.Stretch

end
-- ==== Proof.KernelValue.lean ====
/-
  The idealized kernel program's result, entry by entry, as the specification's output layer.

  The contents at each segment boundary are a fold from the launch memory. Read backwards from the result: the last
  region leaves its combine step of the arrays the second host stretch prepares; that stretch reads the hidden table
  (what the first region left, untouched since) and the projected table (what the second region left: the hidden table
  times the neighbour weights); the first region leaves its combine step of the arrays the first host stretch prepares
  from the arguments, which is the specification's hidden layer. The three regions' closed forms enter as hypotheses.
-/
import proofs.«140910_j73993696576014_2_alg».proof.Proof.Gen.KernelIdeal.Frame
import proofs.«140910_j73993696576014_2_alg».proof.Proof.HostStretch
import Idealize.ShloMosaic.Lib.StableHlo.Run
import Idealize.ShloMosaic.Lib.Pipeline.Value

noncomputable section

namespace Cert.KernelIdeal.KValue

open Idealize.ShloMosaic Idealize.ShloMosaic.TcCoe Idealize.SL.Sem Idealize.ShloMosaic.StableHlo Idealize.ShloMosaic.ValueIdx
open Cert.KernelIdeal Cert.KernelIdeal.Gen Cert.KernelIdeal.Stretch Cert.Sage

/-! ## The two host stretches from any contents -/

section Stretches

variable (W : Valuation τ sig (Elt Ideal))

theorem pre0_v14 : StableHlo.after (hostOps0 (F := Ideal)) W (Proc.devRef .tc main_v14)
    = extractStridedSlice S90000x100 ![0, 0] (W (Proc.devRef .tc main_arg0)) Facts₀.slices_S600000x100_S90000x100_0_0 := by
  after_results <;> rfl
theorem pre0_v9 : StableHlo.after (hostOps0 (F := Ideal)) W (Proc.devRef .tc main_v9)
    = msum0 (W (Proc.devRef .tc main_arg0)) (W (Proc.devRef .tc main_arg7)) (W (Proc.devRef .tc main_arg8)) := by
  after_results <;> rfl
theorem pre0_v16 : StableHlo.after (hostOps0 (F := Ideal)) W (Proc.devRef .tc main_v16)
    = shapeCast S90000x1 (deg0 (W (Proc.devRef .tc main_arg8))) Facts₀.shapeCasts_S90000_S90000x1 := by
  after_results <;> rfl
theorem pre0_v15 : StableHlo.after (hostOps0 (F := Ideal)) W (Proc.devRef .tc main_v15)
    = shapeCast S1x256 (W (Proc.devRef .tc main_arg3)) Facts₀.shapeCasts_S256_S1x256 := by
  after_results <;> rfl
theorem pre0_arg1 : StableHlo.after (hostOps0 (F := Ideal)) W (Proc.devRef .tc main_arg1) = W (Proc.devRef .tc main_arg1) := by
  after_results <;> rfl
theorem pre0_arg2 : StableHlo.after (hostOps0 (F := Ideal)) W (Proc.devRef .tc main_arg2) = W (Proc.devRef .tc main_arg2) := by
  after_results <;> rfl
theorem pre0_arg4 : StableHlo.after (hostOps0 (F := Ideal)) W (Proc.devRef .tc main_arg4) = W (Proc.devRef .tc main_arg4) := by
  after_results <;> rfl
theorem pre0_arg5 : StableHlo.after (hostOps0 (F := Ideal)) W (Proc.devRef .tc main_arg5) = W (Proc.devRef .tc main_arg5) := by
  after_results <;> rfl
theorem pre0_arg6 : StableHlo.after (hostOps0 (F := Ideal)) W (Proc.devRef .tc main_arg6) = W (Proc.devRef .tc main_arg6) := by
  after_results <;> rfl
theorem pre0_arg9 : StableHlo.after (hostOps0 (F := Ideal)) W (Proc.devRef .tc main_arg9) = W (Proc.devRef .tc main_arg9) := by
  after_results <;> rfl
theorem pre0_arg10 : StableHlo.after (hostOps0 (F := Ideal)) W (Proc.devRef .tc main_arg10) = W (Proc.devRef .tc main_arg10) := by
  after_results <;> rfl

theorem pre2_v33 : StableHlo.after (hostOps2 (F := Ideal)) W (Proc.devRef .tc main_v33)
    = extractStridedSlice S8192x256 ![0, 0] (W (Proc.devRef .tc main_v17)) Facts₀.slices_S90000x256_S8192x256_0_0 := by
  after_results <;> rfl
theorem pre2_v28 : StableHlo.after (hostOps2 (F := Ideal)) W (Proc.devRef .tc main_v28)
    = msum1 (W (Proc.devRef .tc main_v18)) (W (Proc.devRef .tc main_arg9)) (W (Proc.devRef .tc main_arg10)) := by
  after_results <;> rfl
theorem pre2_v35 : StableHlo.after (hostOps2 (F := Ideal)) W (Proc.devRef .tc main_v35)
    = shapeCast S8192x1 (deg1 (W (Proc.devRef .tc main_arg10))) Facts₀.shapeCasts_S8192_S8192x1 := by
  after_results <;> rfl
theorem pre2_v34 : StableHlo.after (hostOps2 (F := Ideal)) W (Proc.devRef .tc main_v34)
    = shapeCast S1x47 (W (Proc.devRef .tc main_arg6)) Facts₀.shapeCasts_S47_S1x47 := by
  after_results <;> rfl
theorem pre2_arg4 : StableHlo.after (hostOps2 (F := Ideal)) W (Proc.devRef .tc main_arg4) = W (Proc.devRef .tc main_arg4) := by
  after_results <;> rfl

end Stretches

/-! ## The fold, boundary by boundary -/

section Fold

variable (m : (ℓ : Loc nD τ sig) → Buf (Elt Ideal) ℓ) (ρ : Dev nD → PrngReg)

/-- A buffer no region and no host operation before the last stretch writes still holds its launch contents when the
    last host stretch starts. -/
theorem W3_arg4 (c : Dev nD) : W3 m ρ c (Proc.devRef .tc main_arg4) = m ((c : Thread nD τ).loc main_arg4) :=
  (W3_of_ne m ρ c main_arg4 (by decide)).trans ((W2_of_ne m ρ c main_arg4 (by decide)).trans (pre0_arg4 (W0 m ρ c)))
theorem W3_arg6 (c : Dev nD) : W3 m ρ c (Proc.devRef .tc main_arg6) = m ((c : Thread nD τ).loc main_arg6) :=
  (W3_of_ne m ρ c main_arg6 (by decide)).trans ((W2_of_ne m ρ c main_arg6 (by decide)).trans (pre0_arg6 (W0 m ρ c)))
theorem W3_arg9 (c : Dev nD) : W3 m ρ c (Proc.devRef .tc main_arg9) = m ((c : Thread nD τ).loc main_arg9) :=
  (W3_of_ne m ρ c main_arg9 (by decide)).trans ((W2_of_ne m ρ c main_arg9 (by decide)).trans (pre0_arg9 (W0 m ρ c)))
theorem W3_arg10 (c : Dev nD) : W3 m ρ c (Proc.devRef .tc main_arg10) = m ((c : Thread nD τ).loc main_arg10) :=
  (W3_of_ne m ρ c main_arg10 (by decide)).trans ((W2_of_ne m ρ c main_arg10 (by decide)).trans (pre0_arg10 (W0 m ρ c)))
/-- The second region's weight array is as launched when that region is entered. -/
theorem W2_arg5 (c : Dev nD) : W2 m ρ c (Proc.devRef .tc main_arg5) = m ((c : Thread nD τ).loc main_arg5) :=
  (W2_of_ne m ρ c main_arg5 (by decide)).trans (pre0_arg5 (W0 m ρ c))
/-- The second region reads the hidden table and leaves it as it found it. -/
theorem W3_v17 (c : Dev nD) : W3 m ρ c (Proc.devRef .tc main_v17) = W2 m ρ c (Proc.devRef .tc main_v17) :=
  (W3_arr m ρ c 0).trans (((dat1 (V2 m ρ) c).arrAt_in 0 rfl _).trans (A_eq1 (V2 m ρ) c 0))

variable
  (F0 : ∀ (V : (c : Dev nD) → (b : Ref sig .tc) → Buf (Elt Ideal) ((c : Thread nD τ).loc b)) (c : Dev nD) (r : Fin 90000) (q : Fin 256),
    (dat0 (F := Ideal) V c).arrAt 6 cfg0.N (ix2 r q)
      = comb0At (V c main_v14) (V c main_v9) (V c main_v16) (V c main_arg1) (V c main_arg2) (V c main_v15) r q)
  (F1 : ∀ (V : (c : Dev nD) → (b : Ref sig .tc) → Buf (Elt Ideal) ((c : Thread nD τ).loc b)) (c : Dev nD) (r : Fin 90000) (j : Fin 47),
    (dat1 (F := Ideal) V c).arrAt 2 cfg1.N (ix2 r j) = projAt (V c main_v17) (V c main_arg5) r j)
  (F2 : ∀ (V : (c : Dev nD) → (b : Ref sig .tc) → Buf (Elt Ideal) ((c : Thread nD τ).loc b)) (c : Dev nD) (i : Fin 8192) (j : Fin 47),
    (dat2 (F := Ideal) V c).arrAt 5 cfg2.N (ix2 i j)
      = comb1At (V c main_v33) (V c main_v28) (V c main_v35) (V c main_arg4) (V c main_v34) i j)

include F0 in
/-- What the first region leaves is the specification's hidden layer of the arguments. -/
theorem hid_entry (c : Dev nD) (r : Fin 90000) (q : Fin 256) :
    W2 m ρ c (Proc.devRef .tc main_v17) (ix2 r q)
      = Cert.Sage.hidden (m ((c : Thread nD τ).loc main_arg0)) (m ((c : Thread nD τ).loc main_arg1))
          (m ((c : Thread nD τ).loc main_arg2)) (m ((c : Thread nD τ).loc main_arg3))
          (src0 (m ((c : Thread nD τ).loc main_arg7))) (dst0 (m ((c : Thread nD τ).loc main_arg8))) r q := by
  refine (congrFun (W2_arr m ρ c 6) (ix2 r q)).trans ((F0 (V1 m ρ) c r q).trans ?_)
  have e14 : V1 m ρ c main_v14 = extractStridedSlice S90000x100 ![0, 0] (m ((c : Thread nD τ).loc main_arg0)) Facts₀.slices_S600000x100_S90000x100_0_0 :=
    pre0_v14 (W0 m ρ c)
  have e9 : V1 m ρ c main_v9 = msum0 (m ((c : Thread nD τ).loc main_arg0)) (m ((c : Thread nD τ).loc main_arg7)) (m ((c : Thread nD τ).loc main_arg8)) :=
    pre0_v9 (W0 m ρ c)
  have e16 : V1 m ρ c main_v16 = shapeCast S90000x1 (deg0 (m ((c : Thread nD τ).loc main_arg8))) Facts₀.shapeCasts_S90000_S90000x1 :=
    pre0_v16 (W0 m ρ c)
  have e15 : V1 m ρ c main_v15 = shapeCast S1x256 (m ((c : Thread nD τ).loc main_arg3)) Facts₀.shapeCasts_S256_S1x256 :=
    pre0_v15 (W0 m ρ c)
  have e1 : V1 m ρ c main_arg1 = m ((c : Thread nD τ).loc main_arg1) := pre0_arg1 (W0 m ρ c)
  have e2 : V1 m ρ c main_arg2 = m ((c : Thread nD τ).loc main_arg2) := pre0_arg2 (W0 m ρ c)
  rw [e14, e9, e16, e15, e1, e2]
  exact layer0_eq _ _ _ _ _ _ r q

include F1 in
/-- What the second region leaves is the hidden table times the neighbour weights. -/
theorem proj_entry (c : Dev nD) (r : Fin 90000) (j : Fin 47) :
    W3 m ρ c (Proc.devRef .tc main_v18) (ix2 r j)
      = projAt (W2 m ρ c (Proc.devRef .tc main_v17)) (m ((c : Thread nD τ).loc main_arg5)) r j := by
  refine (congrFun (W3_arr m ρ c 2) (ix2 r j)).trans ((F1 (V2 m ρ) c r j).trans ?_)
  have e5 : V2 m ρ c main_arg5 = m ((c : Thread nD τ).loc main_arg5) := W2_arg5 m ρ c
  rw [e5]

include F0 F1 F2 in
/-- THE KERNEL PROGRAM'S RESULT, entry by entry: the output layer, contracted before the sum over the edges, over the
    specification's hidden layer of the arguments. -/
theorem kernel_entry (c : Dev nD) (i : Fin 8192) (j : Fin 47) :
    W5 m ρ c (Proc.devRef .tc main_v36) (ix2 i j)
      = outK (fun r q => Cert.Sage.hidden (m ((c : Thread nD τ).loc main_arg0)) (m ((c : Thread nD τ).loc main_arg1))
            (m ((c : Thread nD τ).loc main_arg2)) (m ((c : Thread nD τ).loc main_arg3))
            (src0 (m ((c : Thread nD τ).loc main_arg7))) (dst0 (m ((c : Thread nD τ).loc main_arg8))) r q)
          (m ((c : Thread nD τ).loc main_arg4)) (m ((c : Thread nD τ).loc main_arg5)) (m ((c : Thread nD τ).loc main_arg6))
          (src1 (m ((c : Thread nD τ).loc main_arg9))) (dst1 (m ((c : Thread nD τ).loc main_arg10))) i j := by
  refine (congrFun (W5_arr m ρ c 5) (ix2 i j)).trans ((F2 (V4 m ρ) c i j).trans ?_)
  have e33 : V4 m ρ c main_v33 = extractStridedSlice S8192x256 ![0, 0] (W2 m ρ c (Proc.devRef .tc main_v17)) Facts₀.slices_S90000x256_S8192x256_0_0 :=
    (pre2_v33 (W3 m ρ c)).trans (by rw [W3_v17])
  have e28 : V4 m ρ c main_v28 = msum1 (W3 m ρ c (Proc.devRef .tc main_v18)) (m ((c : Thread nD τ).loc main_arg9)) (m ((c : Thread nD τ).loc main_arg10)) :=
    (pre2_v28 (W3 m ρ c)).trans (by rw [W3_arg9, W3_arg10])
  have e35 : V4 m ρ c main_v35 = shapeCast S8192x1 (deg1 (m ((c : Thread nD τ).loc main_arg10))) Facts₀.shapeCasts_S8192_S8192x1 :=
    (pre2_v35 (W3 m ρ c)).trans (by rw [W3_arg10])
  have e34 : V4 m ρ c main_v34 = shapeCast S1x47 (m ((c : Thread nD τ).loc main_arg6)) Facts₀.shapeCasts_S47_S1x47 :=
    (pre2_v34 (W3 m ρ c)).trans (by rw [W3_arg6])
  have e4 : V4 m ρ c main_arg4 = m ((c : Thread nD τ).loc main_arg4) :=
    (pre2_arg4 (W3 m ρ c)).trans (W3_arg4 m ρ c)
  rw [e33, e28, e35, e34, e4]
  refine (layer1_eq _ _ _ (m ((c : Thread nD τ).loc main_arg5)) _ _ _ (proj_entry m ρ F1 c) i j).trans ?_
  exact congrArg (fun H => outK H (m ((c : Thread nD τ).loc main_arg4)) (m ((c : Thread nD τ).loc main_arg5))
      (m ((c : Thread nD τ).loc main_arg6)) (src1 (m ((c : Thread nD τ).loc main_arg9))) (dst1 (m ((c : Thread nD τ).loc main_arg10))) i j)
    (funext fun r => funext fun q => hid_entry m ρ F0 c r q)

end Fold

end Cert.KernelIdeal.KValue

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.Region0Pay.lean ====
/-
  The hidden layer's combine step, read at an entry of its output block.

  The body takes a block of own rows a (9000 × 100), the matching block of summed neighbour rows s (9000 × 100), the
  block of edge counts d (9000 × 1) and the whole weight tables W_self, W_neigh (100 × 256) and bias row b (1 × 256),
  and stores  max(a · W_self + (s / max(d, 1)) · W_neigh + b, 0).  At row p and column q of the block that is
      max( Σ_k a(p,k) · W_self(k,q) + Σ_k (s(p,k) / max(d(p,0), 1)) · W_neigh(k,q) + b(0,q), 0 ):
  a product into the zero accumulator is the plain sum of products, the count column is read along its row, and the
  bias row is read down its column.
-/
import proofs.«140910_j73993696576014_2_alg».proof.Proof.Gen.KernelIdeal.Skeleton
import proofs.«140910_j73993696576014_2_alg».proof.Proof.RegionFns
import proofs.«140910_j73993696576014_2_alg».proof.Proof.LibMatmulAt
import proofs.«140910_j73993696576014_2_alg».proof.Proof.LibKeepdims
import Idealize.ShloMosaic.Lib.Pipeline.Value

noncomputable section

namespace Cert.KernelIdeal.RegionValue

open Idealize.ShloMosaic Idealize.ShloMosaic.ValueIdx Cert.KernelIdeal Cert.KernelIdeal.Gen

/-- A product into the zero accumulator at row a and column b: the sum over the contracted coordinate. -/
theorem matmul_zero_at {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant ⟨2, ![M, N]⟩ .f32 0x00000000#32) (ix2 a b) = ∑ k : Fin K, A (ix2 a k) * B (ix2 k b) :=
  Cert.KernelIdeal.Hand.matmul_zero_plain_apply d hd prec A B (ix2 a b)

/-- A single row [1, n] broadcast down m rows reads, at (p, k), the row's entry k. -/
theorem broadcastTo_1n_mn_apply {α : Type} {m n : Nat} (v : (⟨2, ![1, n]⟩ : Shape).Idx → α)
    (h : (⟨2, ![1, n]⟩ : Shape).Broadcasts ⟨2, ![m, n]⟩) (p : Fin m) (k : Fin n) :
    broadcastTo ⟨2, ![m, n]⟩ v h (ix2 p k) = v (ix2 (0 : Fin 1) k) := by
  refine broadcastTo_apply v h (ix2 p k) (ix2 (0 : Fin 1) k) fun ax => ?_
  match ax with
  | ⟨0, _⟩ => rfl
  | ⟨1, _⟩ =>
    show k.val = if n = 1 then 0 else k.val
    split
    · have := k.isLt; omega
    · rfl

/-- The combine step's stored value at row p and column q of the block. -/
theorem pay0_apply (x0 x1 : Vec Ideal S9000x100 .f32) (x2 : Vec Ideal S9000x1 .f32) (x3 x4 : Vec Ideal S100x256 .f32)
    (x5 : Vec Ideal S1x256 .f32) (p : Fin 9000) (q : Fin 256) :
    k0_pay1 (F := Ideal) x0 x1 x2 x3 x4 x5 (ix2 p q)
      = max (((∑ k : Fin 100, x0 (ix2 p k) * x3 (ix2 k q))
          + ∑ k : Fin 100, Ideal.div (x1 (ix2 p k)) (max (x2 (ix2 p (0 : Fin 1))) Cert.Sage.one32) * x4 (ix2 k q))
        + x5 (ix2 (0 : Fin 1) q)) Cert.Sage.zero32 := by
  unfold k0_pay1
  simp only [shapeCast_self]
  show max ((matmul dot_S9000x100_S100x256_S9000x256_1_0_0_1_n_n none x0 x3 (constant S9000x256 .f32 0x00000000#32) (ix2 p q)
        + matmul dot_S9000x100_S100x256_S9000x256_1_0_0_1_n_n none
            (divf x1 (broadcastTo S9000x100 (maximumf x2 (broadcast S9000x1 (Ideal.ofBits .f32 0x3F800000#32))) broadcasts_S9000x1_S9000x100))
            x4 (constant S9000x256 .f32 0x00000000#32) (ix2 p q))
      + broadcastTo S9000x256 x5 broadcasts_S1x256_S9000x256 (ix2 p q)) (Ideal.ofBits .f32 0x00000000#32) = _
  have e1 := matmul_zero_at (φ₁ := .f32) (φ₂ := .f32) dot_S9000x100_S100x256_S9000x256_1_0_0_1_n_n rfl none x0 x3 p q
  have e2 := matmul_zero_at (φ₁ := .f32) (φ₂ := .f32) dot_S9000x100_S100x256_S9000x256_1_0_0_1_n_n rfl none
    (divf x1 (broadcastTo S9000x100 (maximumf x2 (broadcast S9000x1 (Ideal.ofBits .f32 0x3F800000#32))) broadcasts_S9000x1_S9000x100))
    x4 p q
  have e3 := broadcastTo_1n_mn_apply x5 broadcasts_S1x256_S9000x256 p q
  rw [e1, e2, e3]
  refine congrArg (fun z => max ((_ + z) + _) _) (Finset.sum_congr rfl fun k _ => ?_)
  show Ideal.div (x1 (ix2 p k)) (broadcastTo S9000x100 (maximumf x2 (broadcast S9000x1 (Ideal.ofBits .f32 0x3F800000#32))) broadcasts_S9000x1_S9000x100 (ix2 p k)) * _ = _
  rw [Cert.Lib.Keepdims.broadcastTo_a1_ab_apply]
  rfl

end Cert.KernelIdeal.RegionValue

end
-- ==== Proof.Region0.lean ====
/-
  The hidden layer's combine step over the whole table.

  The step runs at ten points; point t works on rows 9000·t … 9000·t + 8999. Its blocks of own rows, of summed
  neighbour rows and of edge counts are those rows of their tables, and the weight tables and the bias row are read
  whole at every point. So entry (p, q) of the block stored at point t is the combine step's formula at row
  9000·t + p and column q of the tables as the step finds them, and the ten blocks tile the output table: the table
  ends holding that formula at every entry.
-/
import proofs.«140910_j73993696576014_2_alg».proof.Proof.Gen.KernelIdeal.Frame
import proofs.«140910_j73993696576014_2_alg».proof.Proof.RegionFns
import proofs.«140910_j73993696576014_2_alg».proof.Proof.Region0Pay
import Idealize.ShloMosaic.Lib.Pipeline.Value

noncomputable section

namespace Cert.KernelIdeal.RegionValue

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- Which block each window reads at point t: the row blocks follow the point, the weight tables and the bias row
    stay at their one block. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- The block of own rows at point t is rows 9000·t … of the own-rows table. -/
theorem iblk0_0_apply (c : Dev nD) (t : Fin cfg0.N) (p : Fin 9000) (k : Fin 100) (r : Fin 90000)
    (hr : r.val = t.val * 9000 + p.val) :
    (iblk0 V c 0 t : Vec Ideal S9000x100 .f32) (ix2 p k) = (V c main_v14 : S90000x100.Idx → EReal) (ix2 r k) := by
  obtain ⟨e0, e1⟩ := (idx_facts0 t).1
  unfold iblk0
  rw [View.read_apply]
  show V c main_v14 _ = V c main_v14 _
  refine congrArg (V c main_v14) (funext fun a => Fin.ext ?_)
  match a with
  | ⟨0, _⟩ => show win0_0.index t (0 : Fin 2) * 9000 + 1 * p.val = r.val; rw [e0, hr]; omega
  | ⟨1, _⟩ => show win0_0.index t (1 : Fin 2) * 100 + 1 * k.val = k.val; rw [e1]; omega

/-- The block of summed neighbour rows at point t is rows 9000·t … of their table. -/
theorem iblk0_1_apply (c : Dev nD) (t : Fin cfg0.N) (p : Fin 9000) (k : Fin 100) (r : Fin 90000)
    (hr : r.val = t.val * 9000 + p.val) :
    (iblk0 V c 1 t : Vec Ideal S9000x100 .f32) (ix2 p k) = (V c main_v9 : S90000x100.Idx → EReal) (ix2 r k) := by
  obtain ⟨e0, e1⟩ := (idx_facts0 t).2.1
  unfold iblk0
  rw [View.read_apply]
  show V c main_v9 _ = V c main_v9 _
  refine congrArg (V c main_v9) (funext fun a => Fin.ext ?_)
  match a with
  | ⟨0, _⟩ => show win0_1.index t (0 : Fin 2) * 9000 + 1 * p.val = r.val; rw [e0, hr]; omega
  | ⟨1, _⟩ => show win0_1.index t (1 : Fin 2) * 100 + 1 * k.val = k.val; rw [e1]; omega

/-- The block of edge counts at point t is rows 9000·t … of the count column. -/
theorem iblk0_2_apply (c : Dev nD) (t : Fin cfg0.N) (p : Fin 9000) (k : Fin 1) (r : Fin 90000)
    (hr : r.val = t.val * 9000 + p.val) :
    (iblk0 V c 2 t : Vec Ideal S9000x1 .f32) (ix2 p k) = (V c main_v16 : S90000x1.Idx → EReal) (ix2 r k) := by
  obtain ⟨e0, e1⟩ := (idx_facts0 t).2.2.1
  unfold iblk0
  rw [View.read_apply]
  show V c main_v16 _ = V c main_v16 _
  refine congrArg (V c main_v16) (funext fun a => Fin.ext ?_)
  match a with
  | ⟨0, _⟩ => show win0_2.index t (0 : Fin 2) * 9000 + 1 * p.val = r.val; rw [e0, hr]; omega
  | ⟨1, _⟩ => show win0_2.index t (1 : Fin 2) * 1 + 1 * k.val = k.val; rw [e1]; omega

/-- The block of own weights at every point is the whole table. -/
theorem iblk0_3_apply (c : Dev nD) (t : Fin cfg0.N) (a' : Fin 100) (b' : Fin 256) :
    (iblk0 V c 3 t : Vec Ideal S100x256 .f32) (ix2 a' b') = (V c main_arg1 : S100x256.Idx → EReal) (ix2 a' b') := by
  obtain ⟨e0, e1⟩ := (idx_facts0 t).2.2.2.1
  unfold iblk0
  rw [View.read_apply]
  show V c main_arg1 _ = V c main_arg1 _
  refine congrArg (V c main_arg1) (funext fun a => Fin.ext ?_)
  match a with
  | ⟨0, _⟩ => show win0_3.index t (0 : Fin 2) * 100 + 1 * a'.val = a'.val; rw [e0]; omega
  | ⟨1, _⟩ => show win0_3.index t (1 : Fin 2) * 256 + 1 * b'.val = b'.val; rw [e1]; omega

/-- The block of neighbour weights at every point is the whole table. -/
theorem iblk0_4_apply (c : Dev nD) (t : Fin cfg0.N) (a' : Fin 100) (b' : Fin 256) :
    (iblk0 V c 4 t : Vec Ideal S100x256 .f32) (ix2 a' b') = (V c main_arg2 : S100x256.Idx → EReal) (ix2 a' b') := by
  obtain ⟨e0, e1⟩ := (idx_facts0 t).2.2.2.2.1
  unfold iblk0
  rw [View.read_apply]
  show V c main_arg2 _ = V c main_arg2 _
  refine congrArg (V c main_arg2) (funext fun a => Fin.ext ?_)
  match a with
  | ⟨0, _⟩ => show win0_4.index t (0 : Fin 2) * 100 + 1 * a'.val = a'.val; rw [e0]; omega
  | ⟨1, _⟩ => show win0_4.index t (1 : Fin 2) * 256 + 1 * b'.val = b'.val; rw [e1]; omega

/-- The block of the bias at every point is the whole row. -/
theorem iblk0_5_apply (c : Dev nD) (t : Fin cfg0.N) (a' : Fin 1) (b' : Fin 256) :
    (iblk0 V c 5 t : Vec Ideal S1x256 .f32) (ix2 a' b') = (V c main_v15 : S1x256.Idx → EReal) (ix2 a' b') := by
  obtain ⟨e0, e1⟩ := (idx_facts0 t).2.2.2.2.2.1
  unfold iblk0
  rw [View.read_apply]
  show V c main_v15 _ = V c main_v15 _
  refine congrArg (V c main_v15) (funext fun a => Fin.ext ?_)
  match a with
  | ⟨0, _⟩ => show win0_5.index t (0 : Fin 2) * 1 + 1 * a'.val = a'.val; rw [e0]; omega
  | ⟨1, _⟩ => show win0_5.index t (1 : Fin 2) * 256 + 1 * b'.val = b'.val; rw [e1]; omega

/-- The combine step's formula over the tables as the step finds them, as one function of the output table's index. -/
abbrev G0 (c : Dev nD) : S90000x256.Idx → EReal := fun i =>
  Cert.Sage.comb0At (V c main_v14) (V c main_v9) (V c main_v16) (V c main_arg1) (V c main_arg2) (V c main_v15) (i 0) (i 1)

/-- Entry (p, q) of the block stored at point t is the formula at row 9000·t + p and column q. -/
theorem block_point (c : Dev nD) (t : Fin cfg0.N) (p : Fin 9000) (q : Fin 256) (r : Fin 90000) (q' : Fin 256)
    (hr : r.val = t.val * 9000 + p.val) (hq : q'.val = q.val) :
    k0_pay1 (F := Ideal) (iblk0 V c 0 t) (iblk0 V c 1 t) (iblk0 V c 2 t) (iblk0 V c 3 t) (iblk0 V c 4 t) (iblk0 V c 5 t) (ix2 p q)
      = Cert.Sage.comb0At (V c main_v14) (V c main_v9) (V c main_v16) (V c main_arg1) (V c main_arg2) (V c main_v15) r q' := by
  have hq' : q' = q := Fin.ext hq
  rw [hq']
  refine (pay0_apply (iblk0 V c 0 t) (iblk0 V c 1 t) (iblk0 V c 2 t) (iblk0 V c 3 t) (iblk0 V c 4 t) (iblk0 V c 5 t) p q).trans ?_
  unfold Cert.Sage.comb0At
  have h0 : ∀ k : Fin 100, (iblk0 V c 0 t : Vec Ideal S9000x100 .f32) (ix2 p k) = (V c main_v14 : S90000x100.Idx → EReal) (ix2 r k) :=
    fun k => iblk0_0_apply V c t p k r hr
  have h1 : ∀ k : Fin 100, (iblk0 V c 1 t : Vec Ideal S9000x100 .f32) (ix2 p k) = (V c main_v9 : S90000x100.Idx → EReal) (ix2 r k) :=
    fun k => iblk0_1_apply V c t p k r hr
  have h2 : (iblk0 V c 2 t : Vec Ideal S9000x1 .f32) (ix2 p (0 : Fin 1)) = (V c main_v16 : S90000x1.Idx → EReal) (ix2 r (0 : Fin 1)) :=
    iblk0_2_apply V c t p 0 r hr
  have h3 : ∀ k : Fin 100, (iblk0 V c 3 t : Vec Ideal S100x256 .f32) (ix2 k q) = (V c main_arg1 : S100x256.Idx → EReal) (ix2 k q) :=
    fun k => iblk0_3_apply V c t k q
  have h4 : ∀ k : Fin 100, (iblk0 V c 4 t : Vec Ideal S100x256 .f32) (ix2 k q) = (V c main_arg2 : S100x256.Idx → EReal) (ix2 k q) :=
    fun k => iblk0_4_apply V c t k q
  have h5 : (iblk0 V c 5 t : Vec Ideal S1x256 .f32) (ix2 (0 : Fin 1) q) = (V c main_v15 : S1x256.Idx → EReal) (ix2 (0 : Fin 1) q) :=
    iblk0_5_apply V c t 0 q
  refine congrArg₂ max (congrArg₂ (· + ·) (congrArg₂ (· + ·) (Finset.sum_congr rfl fun k _ => ?_) (Finset.sum_congr rfl fun k _ => ?_)) h5) rfl
  · rw [h0 k, h3 k]
  · rw [h1 k, h2, h4 k]

/-- What point t writes back is block t of the formula. -/
theorem flushed0_eq (c : Dev nD) (t : Fin cfg0.N) :
    (dat0 (F := Ideal) V c).flushed 6 t = ((cfg0.win 6).blk t).view.read (Elt Ideal) (G0 V c) := by
  obtain ⟨e0, e1⟩ := (idx_facts0 t).2.2.2.2.2.2
  show (cfg0.win 6).cut (grid0.coords t) ((dat0 (F := Ideal) V c).after 6 t) = _
  rw [after0_6]
  unfold out0_6
  rw [View.canon_unit_zero hz0]
  simp only [View.ld_unit_zero (S := S9000x100) hz0, View.ld_unit_zero (S := S9000x1) hz0,
    View.ld_unit_zero (S := S100x256) hz0, View.ld_unit_zero (S := S1x256) hz0]
  funext j
  show k0_pay1 (F := Ideal) (iblk0 V c 0 t) (iblk0 V c 1 t) (iblk0 V c 2 t) (iblk0 V c 3 t) (iblk0 V c 4 t) (iblk0 V c 5 t) j
    = G0 V c (((cfg0.win 6).blk t).view.emb j)
  have hj0 : (j 0).val < 9000 := (j 0).isLt
  have hj1 : (j 1).val < 256 := (j 1).isLt
  refine (congrArg (k0_pay1 (F := Ideal) (iblk0 V c 0 t) (iblk0 V c 1 t) (iblk0 V c 2 t) (iblk0 V c 3 t) (iblk0 V c 4 t) (iblk0 V c 5 t))
    (eq_ix2 (n0 := 9000) (n1 := 256) j)).trans ?_
  refine block_point V c t (j 0) (j 1) _ _ ?_ ?_
  · show win0_6.index t (0 : Fin 2) * 9000 + 1 * (j 0).val = t.val * 9000 + (j 0).val
    rw [e0]; omega
  · show win0_6.index t (1 : Fin 2) * 256 + 1 * (j 1).val = (j 1).val
    rw [e1]; omega

/-- An index of the output table is in point t's block iff each coordinate is in the block's range on its axis. -/
theorem mem_blk0 (t : Fin cfg0.N) (i : S90000x256.Idx) :
    i ∈ ((cfg0.win 6).blk t).view.set ↔ ∀ a : Fin 2, win0_6.index t a * S9000x256.size a ≤ (i a).val
      ∧ (i a).val < win0_6.index t a * S9000x256.size a + S9000x256.size a := by
  show i ∈ ((View.whole main_v17).slice (win0_6.rect t)).set ↔ _
  rw [View.set_slice_whole, Rect.mem_set_unit]
  exact Iff.rfl

/-- Every entry of the output table is in the block of the point its row falls in. -/
theorem cover0 (i : S90000x256.Idx) :
    ∃ t : Fin cfg0.N, (cfg0.win 6).flush t = true ∧ i ∈ ((cfg0.win 6).blk t).view.set := by
  have hi0 : (i 0).val < 90000 := (i 0).isLt
  have hi1 : (i 1).val < 256 := (i 1).isLt
  obtain ⟨t, ht⟩ : ∃ t : Fin cfg0.N, t.val = (i 0).val / 9000 := ⟨⟨(i 0).val / 9000, by show _ < 10; omega⟩, rfl⟩
  obtain ⟨e0, e1⟩ := (idx_facts0 t).2.2.2.2.2.2
  refine ⟨t, flush0_6 t, ?_⟩
  rw [mem_blk0]
  intro a
  match a with
  | ⟨0, _⟩ =>
    show win0_6.index t (0 : Fin 2) * 9000 ≤ (i 0).val ∧ (i 0).val < win0_6.index t (0 : Fin 2) * 9000 + 9000
    rw [e0, ht]; omega
  | ⟨1, _⟩ =>
    show win0_6.index t (1 : Fin 2) * 256 ≤ (i 1).val ∧ (i 1).val < win0_6.index t (1 : Fin 2) * 256 + 256
    rw [e1]; omega

/-- The output table after the step: the formula at every entry. -/
theorem final0 (c : Dev nD) (r : Fin 90000) (q : Fin 256) :
    (dat0 (F := Ideal) V c).arrAt 6 cfg0.N (ix2 r q)
      = Cert.Sage.comb0At (V c main_v14) (V c main_v9) (V c main_v16) (V c main_arg1) (V c main_arg2) (V c main_v15) r q :=
  congrFun ((dat0 (F := Ideal) V c).arrAt_eq_of_cover 6 (G0 V c) (fun t _ => flushed0_eq V c t) cover0) (ix2 r q)

end Cert.KernelIdeal.RegionValue

end
-- ==== Proof.Region1.lean ====
/-
  The projection kernel's result array, entry by entry on the extended reals.

  The kernel multiplies a 90000 × 256 table by a 256 × 47 matrix, ten row blocks of 9000 rows one after the other; each
  point stores the product of its row block with the whole matrix. Read at an index, the stored block is the sum over the
  contracted coordinate of the entries' products; the block of point t sits at rows 9000 t … 9000 t + 8999 of the result,
  and row r is covered by point r / 9000. So the result array ends at the product of the two arrays as the region finds
  them, whatever those arrays hold.
-/
import proofs.«140910_j73993696576014_2_alg».proof.Proof.Gen.KernelIdeal.Frame
import proofs.«140910_j73993696576014_2_alg».proof.Proof.RegionFns
import proofs.«140910_j73993696576014_2_alg».proof.Proof.LibMatmulAt
import Idealize.ShloMosaic.Lib.Pipeline.Value

noncomputable section

namespace Cert.KernelIdeal.RegionValue

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

namespace Proj

/-- The zero offsets, however they are spelt. -/
theorem zeros2 : (![0, 0] : Fin 2 → Nat) = fun _ => 0 := funext fun a => by fin_cases a <;> rfl

/-- The body's stored value at row p and column j of its block: the product of the two loaded blocks, the sum over the
    contracted coordinate of the entries' products. -/
theorem pay_apply (x0 : Vec Ideal S9000x256 .f32) (x1 : Vec Ideal S256x47 .f32) (p : Fin 9000) (j : Fin 47) :
    k1_pay1 x0 x1 (ix2 p j) = ∑ k : Fin 256, x0 (ix2 p k) * x1 (ix2 k j) := by
  unfold k1_pay1
  rw [shapeCast_self]
  exact Cert.KernelIdeal.Hand.matmul_zero_plain_apply _ rfl none x0 x1 (ix2 p j)

/-- The printed index maps over the grid: the left operand's and the result's blocks are row block t, the right
    operand's block is the whole matrix. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a stored block, over blocks that are row block n of a table A and the whole of a matrix B: the entry of
    the product A · B at the row the block's row sits at in the table. -/
theorem block_apply (A : S90000x256.Idx → EReal) (B : S256x47.Idx → EReal)
    (x0 : Vec Ideal S9000x256 .f32) (x1 : Vec Ideal S256x47 .f32) (n : Nat)
    (h0 : ∀ (p : Fin 9000) (k : Fin 256) (r : Fin 90000), r.val = n * 9000 + p.val → x0 (ix2 p k) = A (ix2 r k))
    (h1 : ∀ (k : Fin 256) (j : Fin 47), x1 (ix2 k j) = B (ix2 k j))
    (y : S9000x47.Idx) (i : S90000x47.Idx) (hi0 : (i 0).val = n * 9000 + (y 0).val) (hi1 : (i 1).val = (y 1).val) :
    k1_pay1 x0 x1 y = Cert.Sage.projAt A B (i 0) (i 1) := by
  obtain ⟨p, j, rfl⟩ : ∃ (p : Fin 9000) (j : Fin 47), y = ix2 p j := ⟨y 0, y 1, eq_ix2 y⟩
  obtain ⟨r, j', rfl⟩ : ∃ (r : Fin 90000) (j' : Fin 47), i = ix2 r j' := ⟨i 0, i 1, eq_ix2 i⟩
  change r.val = n * 9000 + p.val at hi0
  change j'.val = j.val at hi1
  obtain rfl : j' = j := Fin.ext hi1
  show k1_pay1 x0 x1 (ix2 p j') = Cert.Sage.projAt A B r j'
  rw [pay_apply]
  unfold Cert.Sage.projAt
  refine Finset.sum_congr rfl fun k _ => ?_
  rw [h0 p k r hi0, h1]

/-- The whole result array: the product of the hidden table and the weight matrix as the region finds them. -/
abbrev G (c : Dev nD) : S90000x47.Idx → EReal :=
  fun i => Cert.Sage.projAt (V c main_v17) (V c main_arg5) (i 0) (i 1)

/-- What point t writes back is block t of that array. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 (F := Ideal) V c).after 2 t) = _
  rw [after1_2]
  unfold out1_2
  rw [View.canon_unit_zero zeros2]
  simp only [View.ld_unit_zero (S := S9000x256) zeros2, View.ld_unit_zero (S := S256x47) zeros2]
  obtain ⟨e0, e1, e2, e3, e4, e5⟩ := idx_facts t
  funext y
  show k1_pay1 (iblk1 V c 0 t) (iblk1 V c 1 t) y = G V c (((cfg1.win 2).blk t).view.emb y)
  refine block_apply (V c main_v17) (V c main_arg5) (iblk1 V c 0 t) (iblk1 V c 1 t) t.val ?_ ?_ y (((cfg1.win 2).blk t).view.emb y) ?_ ?_
  · intro p k r hr
    unfold iblk1
    rw [View.read_apply]
    show V c main_v17 _ = V c main_v17 _
    refine congrArg _ ?_
    funext a; apply Fin.ext
    match a with
    | ⟨0, _⟩ => show win1_0.index t (0 : Fin 2) * 9000 + 1 * p.val = r.val; omega
    | ⟨1, _⟩ => show win1_0.index t (1 : Fin 2) * 256 + 1 * k.val = k.val; omega
  · intro k j
    unfold iblk1
    rw [View.read_apply]
    show V c main_arg5 _ = V c main_arg5 _
    refine congrArg _ ?_
    funext a; apply Fin.ext
    match a with
    | ⟨0, _⟩ => show win1_1.index t (0 : Fin 2) * 256 + 1 * k.val = k.val; omega
    | ⟨1, _⟩ => show win1_1.index t (1 : Fin 2) * 47 + 1 * j.val = j.val; omega
  · show win1_2.index t (0 : Fin 2) * 9000 + 1 * (y 0).val = t.val * 9000 + (y 0).val; omega
  · show win1_2.index t (1 : Fin 2) * 47 + 1 * (y 1).val = (y 1).val; omega

/-- An index of the result array is in point t's block iff each coordinate is in the block's range on its axis. -/
theorem mem_blk (t : Fin cfg1.N) (i : S90000x47.Idx) :
    i ∈ ((cfg1.win 2).blk t).view.set ↔ ∀ a : Fin 2, win1_2.index t a * S9000x47.size a ≤ (i a).val ∧ (i a).val < win1_2.index t a * S9000x47.size a + S9000x47.size a := by
  show i ∈ ((View.whole main_v18).slice (win1_2.rect t)).set ↔ _
  rw [View.set_slice_whole, Rect.mem_set_unit]
  exact Iff.rfl

/-- Every block index of the result is some point's. -/
theorem idx_onto : ∀ q : Fin 10, ∃ t : Fin cfg1.N, (cfg1.win 2).flush t = true ∧ win1_2.index t (0 : Fin 2) = q.val ∧ win1_2.index t (1 : Fin 2) = 0 :=
  (by decide +kernel : ∀ q : Fin 10, ∃ t : Fin grid1.N, (cfg1.win 2).flush t = true ∧ win1_2.index t (0 : Fin 2) = q.val ∧ win1_2.index t (1 : Fin 2) = 0)

/-- Row r of the result is in the block of the point whose block index is r / 9000: the blocks cover the array. -/
theorem cover (i : S90000x47.Idx) : ∃ t : Fin cfg1.N, (cfg1.win 2).flush t = true ∧ i ∈ ((cfg1.win 2).blk t).view.set := by
  have hi0 : (i 0).val < 90000 := (i 0).isLt
  have hi1 : (i 1).val < 47 := (i 1).isLt
  obtain ⟨t, hf, q0, q1⟩ := idx_onto ⟨(i 0).val / 9000, by omega⟩
  refine ⟨t, hf, ?_⟩
  rw [mem_blk]
  intro a
  match a with
  | ⟨0, _⟩ => show win1_2.index t (0 : Fin 2) * 9000 ≤ (i 0).val ∧ (i 0).val < win1_2.index t (0 : Fin 2) * 9000 + 9000; rw [q0]; show (i 0).val / 9000 * 9000 ≤ (i 0).val ∧ (i 0).val < (i 0).val / 9000 * 9000 + 9000; omega
  | ⟨1, _⟩ => show win1_2.index t (1 : Fin 2) * 47 ≤ (i 1).val ∧ (i 1).val < win1_2.index t (1 : Fin 2) * 47 + 47; omega

/-- The result array after the region: the product, everywhere. -/
theorem final (c : Dev nD) : (dat1 (F := Ideal) V c).arrAt 2 cfg1.N = G V c :=
  (dat1 (F := Ideal) V c).arrAt_eq_of_cover 2 (G V c) (fun t _ => flushed_eq V c t) cover

end Proj

/-- Entry (r, j) of the projection kernel's result array after the region: the hidden table's row r against column j of
    the neighbour weights. -/
theorem final1 (c : Dev nD) (r : Fin 90000) (j : Fin 47) :
    (dat1 (F := Ideal) V c).arrAt 2 cfg1.N (ix2 r j) = Cert.Sage.projAt (V c main_v17) (V c main_arg5) r j := by
  rw [Proj.final V c]

end Cert.KernelIdeal.RegionValue

end
-- ==== Proof.Region2.lean ====
/-
  The output layer's combine kernel's result array, entry by entry on the extended reals.

  The kernel runs over four row blocks of 2048 rows. Each point stores, for its rows, the own features against the self
  weights (a 2048 × 256 block times the whole 256 × 47 matrix), plus the block of the already projected neighbour sum
  divided row by row by the edge count raised to at least one, plus the bias row laid along every row. Read at an index,
  the product is the sum over the contracted coordinate, the quotient and the sums are the extended reals', the count's
  column and the bias row are read at their one column and one row. The block of point t sits at rows 2048 t … 2048 t +
  2047 of the result, and row i is covered by point i / 2048. So the result array ends at the combine step of the arrays
  as the region finds them, whatever those arrays hold.
-/
import proofs.«140910_j73993696576014_2_alg».proof.Proof.Gen.KernelIdeal.Frame
import proofs.«140910_j73993696576014_2_alg».proof.Proof.RegionFns
import proofs.«140910_j73993696576014_2_alg».proof.Proof.LibMatmulAt
import proofs.«140910_j73993696576014_2_alg».proof.Proof.LibKeepdims
import Idealize.ShloMosaic.Lib.Pipeline.Value

noncomputable section

namespace Cert.KernelIdeal.RegionValue

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

namespace Comb1

/-- The zero offsets, however they are spelt. -/
theorem zeros2 : (![0, 0] : Fin 2 → Nat) = fun _ => 0 := funext fun a => by fin_cases a <;> rfl

/-- A one-row matrix [1, b] broadcast down a rows reads, at (i, j), the row's entry j. -/
theorem broadcastTo_1b_ab_apply {α : Type} {a b : ℕ} (v : (⟨2, ![1, b]⟩ : Shape).Idx → α) (h : (⟨2, ![1, b]⟩ : Shape).Broadcasts ⟨2, ![a, b]⟩)
    (i : Fin a) (j : Fin b) : broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The body's stored value at row p and column j of its block: the own rows against the self weights, plus the already
    projected neighbour sum divided by the count (at least one), plus the bias row. -/
theorem pay_apply (x0 : Vec Ideal S2048x256 .f32) (x1 : Vec Ideal S2048x47 .f32) (x2 : Vec Ideal S2048x1 .f32)
    (x3 : Vec Ideal S256x47 .f32) (x4 : Vec Ideal S1x47 .f32) (p : Fin 2048) (j : Fin 47) :
    k2_pay1 x0 x1 x2 x3 x4 (ix2 p j)
      = ((∑ k : Fin 256, x0 (ix2 p k) * x3 (ix2 k j)) + Ideal.div (x1 (ix2 p j)) (max (x2 (ix2 p (0 : Fin 1))) Cert.Sage.one32))
        + x4 (ix2 (0 : Fin 1) j) := by
  unfold k2_pay1
  simp only [shapeCast_self]
  refine congrArg₂ (· + ·) (congrArg₂ (· + ·) ?_ (congrArg (Ideal.div (x1 (ix2 p j))) ?_)) ?_
  · exact Cert.KernelIdeal.Hand.matmul_zero_plain_apply _ rfl none x0 x3 (ix2 p j)
  · exact (Cert.Lib.Keepdims.broadcastTo_a1_ab_apply _ broadcasts_S2048x1_S2048x47 p j).trans rfl
  · exact broadcastTo_1b_ab_apply x4 broadcasts_S1x47_S2048x47 p j

/-- The printed index maps over the grid: the own rows', the neighbour sum's, the count's and the result's blocks are
    row block t; the weights' and the bias row's blocks are the whole arrays. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One entry of a stored block, over blocks that are row block n of the own rows A, of the neighbour sum M and of the
    count D, and the whole of the weights W and of the bias row Bb: the combine step's entry at the row the block's row
    sits at in the arrays. -/
theorem block_apply (A : S8192x256.Idx → EReal) (M : S8192x47.Idx → EReal) (D : S8192x1.Idx → EReal)
    (W : S256x47.Idx → EReal) (Bb : S1x47.Idx → EReal)
    (x0 : Vec Ideal S2048x256 .f32) (x1 : Vec Ideal S2048x47 .f32) (x2 : Vec Ideal S2048x1 .f32)
    (x3 : Vec Ideal S256x47 .f32) (x4 : Vec Ideal S1x47 .f32) (n : Nat)
    (h0 : ∀ (p : Fin 2048) (k : Fin 256) (r : Fin 8192), r.val = n * 2048 + p.val → x0 (ix2 p k) = A (ix2 r k))
    (h1 : ∀ (p : Fin 2048) (j : Fin 47) (r : Fin 8192), r.val = n * 2048 + p.val → x1 (ix2 p j) = M (ix2 r j))
    (h2 : ∀ (p : Fin 2048) (r : Fin 8192), r.val = n * 2048 + p.val → x2 (ix2 p (0 : Fin 1)) = D (ix2 r (0 : Fin 1)))
    (h3 : ∀ (k : Fin 256) (j : Fin 47), x3 (ix2 k j) = W (ix2 k j))
    (h4 : ∀ (j : Fin 47), x4 (ix2 (0 : Fin 1) j) = Bb (ix2 (0 : Fin 1) j))
    (y : S2048x47.Idx) (i : S8192x47.Idx) (hi0 : (i 0).val = n * 2048 + (y 0).val) (hi1 : (i 1).val = (y 1).val) :
    k2_pay1 x0 x1 x2 x3 x4 y = Cert.Sage.comb1At A M D W Bb (i 0) (i 1) := by
  obtain ⟨p, j, rfl⟩ : ∃ (p : Fin 2048) (j : Fin 47), y = ix2 p j := ⟨y 0, y 1, eq_ix2 y⟩
  obtain ⟨r, j', rfl⟩ : ∃ (r : Fin 8192) (j' : Fin 47), i = ix2 r j' := ⟨i 0, i 1, eq_ix2 i⟩
  change r.val = n * 2048 + p.val at hi0
  change j'.val = j.val at hi1
  obtain rfl : j' = j := Fin.ext hi1
  show k2_pay1 x0 x1 x2 x3 x4 (ix2 p j') = Cert.Sage.comb1At A M D W Bb r j'
  rw [pay_apply]
  unfold Cert.Sage.comb1At
  rw [h1 p j' r hi0, h2 p r hi0, h4 j']
  refine congrArg (fun s => (s + Ideal.div (M (ix2 r j')) (max (D (ix2 r (0 : Fin 1))) Cert.Sage.one32)) + Bb (ix2 (0 : Fin 1) j')) ?_
  refine Finset.sum_congr rfl fun k _ => ?_
  rw [h0 p k r hi0, h3]

/-- The whole result array: the combine step of the arrays as the region finds them. -/
abbrev G (c : Dev nD) : S8192x47.Idx → EReal :=
  fun i => Cert.Sage.comb1At (V c main_v33) (V c main_v28) (V c main_v35) (V c main_arg4) (V c main_v34) (i 0) (i 1)

/-- What point t writes back is block t of that array. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero zeros2]
  simp only [View.ld_unit_zero (S := S2048x256) zeros2, View.ld_unit_zero (S := S2048x47) zeros2,
    View.ld_unit_zero (S := S2048x1) zeros2, View.ld_unit_zero (S := S256x47) zeros2, View.ld_unit_zero (S := S1x47) zeros2]
  obtain ⟨a0, a1, b0, b1, c0, c1, d0, d1, f0, f1, g0, g1⟩ := idx_facts t
  funext y
  show k2_pay1 (iblk2 V c 0 t) (iblk2 V c 1 t) (iblk2 V c 2 t) (iblk2 V c 3 t) (iblk2 V c 4 t) y = G V c (((cfg2.win 5).blk t).view.emb y)
  refine block_apply (V c main_v33) (V c main_v28) (V c main_v35) (V c main_arg4) (V c main_v34)
    (iblk2 V c 0 t) (iblk2 V c 1 t) (iblk2 V c 2 t) (iblk2 V c 3 t) (iblk2 V c 4 t) t.val ?_ ?_ ?_ ?_ ?_ y (((cfg2.win 5).blk t).view.emb y) ?_ ?_
  · intro p k r hr
    unfold iblk2
    rw [View.read_apply]
    show V c main_v33 _ = V c main_v33 _
    refine congrArg _ ?_
    funext a; apply Fin.ext
    match a with
    | ⟨0, _⟩ => show win2_0.index t (0 : Fin 2) * 2048 + 1 * p.val = r.val; omega
    | ⟨1, _⟩ => show win2_0.index t (1 : Fin 2) * 256 + 1 * k.val = k.val; omega
  · intro p j r hr
    unfold iblk2
    rw [View.read_apply]
    show V c main_v28 _ = V c main_v28 _
    refine congrArg _ ?_
    funext a; apply Fin.ext
    match a with
    | ⟨0, _⟩ => show win2_1.index t (0 : Fin 2) * 2048 + 1 * p.val = r.val; omega
    | ⟨1, _⟩ => show win2_1.index t (1 : Fin 2) * 47 + 1 * j.val = j.val; omega
  · intro p r hr
    unfold iblk2
    rw [View.read_apply]
    show V c main_v35 _ = V c main_v35 _
    refine congrArg _ ?_
    funext a; apply Fin.ext
    match a with
    | ⟨0, _⟩ => show win2_2.index t (0 : Fin 2) * 2048 + 1 * p.val = r.val; omega
    | ⟨1, _⟩ => show win2_2.index t (1 : Fin 2) * 1 + 1 * 0 = 0; omega
  · intro k j
    unfold iblk2
    rw [View.read_apply]
    show V c main_arg4 _ = V c main_arg4 _
    refine congrArg _ ?_
    funext a; apply Fin.ext
    match a with
    | ⟨0, _⟩ => show win2_3.index t (0 : Fin 2) * 256 + 1 * k.val = k.val; omega
    | ⟨1, _⟩ => show win2_3.index t (1 : Fin 2) * 47 + 1 * j.val = j.val; omega
  · intro j
    unfold iblk2
    rw [View.read_apply]
    show V c main_v34 _ = V c main_v34 _
    refine congrArg _ ?_
    funext a; apply Fin.ext
    match a with
    | ⟨0, _⟩ => show win2_4.index t (0 : Fin 2) * 1 + 1 * 0 = 0; omega
    | ⟨1, _⟩ => show win2_4.index t (1 : Fin 2) * 47 + 1 * j.val = j.val; omega
  · show win2_5.index t (0 : Fin 2) * 2048 + 1 * (y 0).val = t.val * 2048 + (y 0).val; omega
  · show win2_5.index t (1 : Fin 2) * 47 + 1 * (y 1).val = (y 1).val; omega

/-- An index of the result array is in point t's block iff each coordinate is in the block's range on its axis. -/
theorem mem_blk (t : Fin cfg2.N) (i : S8192x47.Idx) :
    i ∈ ((cfg2.win 5).blk t).view.set ↔ ∀ a : Fin 2, win2_5.index t a * S2048x47.size a ≤ (i a).val ∧ (i a).val < win2_5.index t a * S2048x47.size a + S2048x47.size a := by
  show i ∈ ((View.whole main_v36).slice (win2_5.rect t)).set ↔ _
  rw [View.set_slice_whole, Rect.mem_set_unit]
  exact Iff.rfl

/-- Every block index of the result is some point's. -/
theorem idx_onto : ∀ q : Fin 4, ∃ t : Fin cfg2.N, (cfg2.win 5).flush t = true ∧ win2_5.index t (0 : Fin 2) = q.val ∧ win2_5.index t (1 : Fin 2) = 0 :=
  (by decide +kernel : ∀ q : Fin 4, ∃ t : Fin grid2.N, (cfg2.win 5).flush t = true ∧ win2_5.index t (0 : Fin 2) = q.val ∧ win2_5.index t (1 : Fin 2) = 0)

/-- Row i of the result is in the block of the point whose block index is i / 2048: the blocks cover the array. -/
theorem cover (i : S8192x47.Idx) : ∃ t : Fin cfg2.N, (cfg2.win 5).flush t = true ∧ i ∈ ((cfg2.win 5).blk t).view.set := by
  have hi0 : (i 0).val < 8192 := (i 0).isLt
  have hi1 : (i 1).val < 47 := (i 1).isLt
  obtain ⟨t, hf, q0, q1⟩ := idx_onto ⟨(i 0).val / 2048, by omega⟩
  refine ⟨t, hf, ?_⟩
  rw [mem_blk]
  intro a
  match a with
  | ⟨0, _⟩ => show win2_5.index t (0 : Fin 2) * 2048 ≤ (i 0).val ∧ (i 0).val < win2_5.index t (0 : Fin 2) * 2048 + 2048; rw [q0]; show (i 0).val / 2048 * 2048 ≤ (i 0).val ∧ (i 0).val < (i 0).val / 2048 * 2048 + 2048; omega
  | ⟨1, _⟩ => show win2_5.index t (1 : Fin 2) * 47 ≤ (i 1).val ∧ (i 1).val < win2_5.index t (1 : Fin 2) * 47 + 47; omega

/-- The result array after the region: the combine step, everywhere. -/
theorem final (c : Dev nD) : (dat2 (F := Ideal) V c).arrAt 5 cfg2.N = G V c :=
  (dat2 (F := Ideal) V c).arrAt_eq_of_cover 5 (G V c) (fun t _ => flushed_eq V c t) cover

end Comb1

/-- Entry (i, j) of the output layer's combine kernel's result array after the region: own row i against column j of the
    self weights, plus the projected neighbour sum at (i, j) divided by the count of row i (at least one), plus bias j. -/
theorem final2 (c : Dev nD) (i : Fin 8192) (j : Fin 47) :
    (dat2 (F := Ideal) V c).arrAt 5 cfg2.N (ix2 i j)
      = Cert.Sage.comb1At (V c main_v33) (V c main_v28) (V c main_v35) (V c main_arg4) (V c main_v34) i j := by
  rw [Comb1.final V c]

end Cert.KernelIdeal.RegionValue

end
-- ==== Proof.RefValue.lean ====
/-
  The reference program's two layers, read entry by entry on the extended reals.

  The reference computes a two-layer mean-aggregation graph convolution with plain array operations: per layer a row
  gather of the source rows, a scatter-add of those rows into the destination rows, a scatter-add of ones that counts
  the edges of each destination, a maximum with one, a division, two matrix products, two additions, and for the
  first layer a maximum with zero. Each of these operations reads at an index from its operands at an index; the
  gather reads the table at the row its start index names (clamped), and a scatter-add is its operand plus the exact
  sum of the updates whose segment id is the entry's row. Chaining the reads gives, for the hidden table and for the
  output, exactly the entry formula of the shared specification (`Cert.Sage.hidden`, `Cert.Sage.outR`). No
  finiteness is used: both sides are the same expression of extended reals.
-/
import proofs.«140910_j73993696576014_2_alg».proof.Proof.Gen.ReferenceIdeal.Read
import proofs.«140910_j73993696576014_2_alg».proof.Proof.SageSpec
import proofs.«140910_j73993696576014_2_alg».proof.Proof.LibSegmentSum
import proofs.«140910_j73993696576014_2_alg».proof.Proof.LibGatherRows

noncomputable section

namespace Cert.ReferenceIdeal.RefValue

open Cert.ReferenceIdeal Cert.ReferenceIdeal.Read Idealize.ShloMosaic Idealize.ShloMosaic.ValueIdx
open Cert.SegmentSum Cert.KernelIdeal.Hand

/-- At the ideal values the host's accumulating scatter is the exact sum (stated over variable arrays). -/
theorem scatterAdd_ideal {s si su : Shape} (d : ScatterDims s si su) (x : FVec Ideal s .f32) (idx : IVec si 32)
    (u : FVec Ideal su .f32) : Host.scatterAdd d x idx u = Ideal.hostScatterAdd d x idx u := rfl

/-! ### Index arithmetic of the hidden layer's operations -/

theorem lidx20 (r : Fin 90000) (c : Fin 256) (k : Fin 100) : lidx_main_v20 (ix2 r c) k = ix2 r k := by
  funext a; match a with | ⟨0, _⟩ => rfl | ⟨1, _⟩ => rfl
theorem ridx20 (r : Fin 90000) (c : Fin 256) (k : Fin 100) : ridx_main_v20 (ix2 r c) k = ix2 k c := by
  funext a; match a with | ⟨0, _⟩ => rfl | ⟨1, _⟩ => rfl
theorem lidx21 (r : Fin 90000) (c : Fin 256) (k : Fin 100) : lidx_main_v21 (ix2 r c) k = ix2 r k := by
  funext a; match a with | ⟨0, _⟩ => rfl | ⟨1, _⟩ => rfl
theorem ridx21 (r : Fin 90000) (c : Fin 256) (k : Fin 100) : ridx_main_v21 (ix2 r c) k = ix2 k c := by
  funext a; match a with | ⟨0, _⟩ => rfl | ⟨1, _⟩ => rfl
theorem idx19 (r : Fin 90000) (k : Fin 100) : idx_main_v19 (ix2 r k) = ix2 (Cert.Sage.up0 r) k := by
  funext a; match a with | ⟨0, _⟩ => rfl | ⟨1, _⟩ => rfl
theorem idx1617 (r : Fin 90000) (k : Fin 100) : idx_main_v16 (idx_main_v17 (ix2 r k)) = ix1 r := by
  funext a; match a with | ⟨0, _⟩ => rfl
theorem idx2324 (r : Fin 90000) (c : Fin 256) : idx_main_v23 (idx_main_v24 (ix2 r c)) = ix1 c := by
  funext a; match a with | ⟨0, _⟩ => rfl

/-- The edge count of the hidden layer: the ones summed over the edges that end at node r, from the zero word. -/
theorem count0 (x8 : (⟨S2250000, .i32⟩ : BufTy).Contents (Elt Ideal)) (r : Fin 90000) :
    val_main_v13 (F := Ideal) x8 (ix1 r)
      = Cert.Sage.segSum (val_main_v8 (F := Ideal) x8) (fun _ => Cert.Sage.one32) r := by
  unfold val_main_v13
  rw [scatterAdd_ideal]
  refine (scatterAdd_vec_apply (E := 2250000) (N := 90000) _ rfl rfl rfl rfl _ _ _ r).trans ?_
  unfold Cert.Sage.segSum
  refine congrArg₂ (· + ·) ?_ (Finset.sum_congr rfl fun e _ => ?_)
  · rw [val_main_v11_apply, val_main_cst_2_apply]; rfl
  · rw [val_main_v10_apply, val_main_cst_1_apply]; rfl

/-- The divisor of the hidden layer's mean at node r, read at any column. -/
theorem den0 (x8 : (⟨S2250000, .i32⟩ : BufTy).Contents (Elt Ideal)) (r : Fin 90000) (k : Fin 100) :
    val_main_v17 (F := Ideal) x8 (ix2 r k) = Cert.Sage.meanDen (val_main_v8 (F := Ideal) x8) r := by
  rw [val_main_v17_apply, val_main_v16_apply, idx1617, val_main_v15_apply, count0, val_main_v14_apply,
    val_main_cst_3_apply]
  rfl

/-- A gathered feature row: the feature table at the row the start index names, clamped into the table. -/
theorem gather0 (x0 : (⟨S600000x100, .f32⟩ : BufTy).Contents (Elt Ideal))
    (x7 : (⟨S2250000, .i32⟩ : BufTy).Contents (Elt Ideal)) (e : Fin 2250000) (k : Fin 100) :
    val_main_v6 (F := Ideal) x0 x7 (ix2 e k)
      = x0 (ix2 (rowOf (N := 600000) (by decide) (val_main_v5 (F := Ideal) x7) e) k) := by
  unfold val_main_v6
  generalize val_main_v5 (F := Ideal) x7 = src
  exact gather_rows_apply (N := 600000) (R := 2250000) (C := 100) (by decide)
    gather_S600000x100_S2250000x1_S2250000x100_1_0_n_n_0_1_1100.wf x0 src e k

/-- The neighbour sum of the hidden layer at (r, k). -/
theorem msg0 (x0 : (⟨S600000x100, .f32⟩ : BufTy).Contents (Elt Ideal))
    (x7 x8 : (⟨S2250000, .i32⟩ : BufTy).Contents (Elt Ideal)) (r : Fin 90000) (k : Fin 100) :
    val_main_v9 (F := Ideal) x0 x7 x8 (ix2 r k)
      = Cert.Sage.segSum (val_main_v8 (F := Ideal) x8)
          (fun e => x0 (ix2 (rowOf (N := 600000) (by decide) (val_main_v5 (F := Ideal) x7) e) k)) r := by
  unfold val_main_v9
  rw [scatterAdd_ideal]
  refine (scatterAdd_rows_apply (E := 2250000) (N := 90000) (C := 100) _ rfl rfl rfl rfl _ _ _ r k).trans ?_
  unfold Cert.Sage.segSum
  refine congrArg₂ (· + ·) ?_ (Finset.sum_congr rfl fun e _ => gather0 x0 x7 e k)
  rw [val_main_v7_apply, val_main_cst_apply]; rfl

/-- THE HIDDEN TABLE, entry (r, c): the first layer of the specification on the input features, then the maximum
    with zero. -/
theorem hidden_entry
    (x0 : (⟨S600000x100, .f32⟩ : BufTy).Contents (Elt Ideal))
    (x1 x2 : (⟨S100x256, .f32⟩ : BufTy).Contents (Elt Ideal))
    (x3 : (⟨S256, .f32⟩ : BufTy).Contents (Elt Ideal))
    (x7 x8 : (⟨S2250000, .i32⟩ : BufTy).Contents (Elt Ideal))
    (r : Fin 90000) (c : Fin 256) :
    Read.val_main_v26 (F := Ideal) x0 x1 x2 x3 x7 x8 (ix2 r c)
      = Cert.Sage.hidden x0 x1 x2 x3 (Read.val_main_v5 (F := Ideal) x7) (Read.val_main_v8 (F := Ideal) x8) r c := by
  rw [val_main_v26_apply, val_main_v25_apply, val_main_v22_apply, val_main_v20_apply, val_main_v21_apply]
  unfold Cert.Sage.hidden Cert.Sage.layer
  rw [Ideal.maximumf_def, Ideal.addf_def, Ideal.addf_def]
  refine congrArg₂ max (congrArg₂ (· + ·) (congrArg₂ (· + ·) ?_ ?_) ?_) ?_
  · refine Finset.sum_congr rfl fun k _ => ?_
    rw [lidx20, ridx20, val_main_v19_apply, idx19]
  · refine Finset.sum_congr rfl fun k _ => ?_
    rw [lidx21, ridx21, val_main_v18_apply, msg0, den0, Ideal.hostDivf_def]
  · rw [val_main_v24_apply, val_main_v23_apply, idx2324]
  · rw [val_main_call0_v0_apply, val_main_call0_cst_apply]; rfl

/-! ### Index arithmetic of the output layer's operations -/

theorem lidx47 (i : Fin 8192) (j : Fin 47) (k : Fin 256) : lidx_main_v47 (ix2 i j) k = ix2 i k := by
  funext a; match a with | ⟨0, _⟩ => rfl | ⟨1, _⟩ => rfl
theorem ridx47 (i : Fin 8192) (j : Fin 47) (k : Fin 256) : ridx_main_v47 (ix2 i j) k = ix2 k j := by
  funext a; match a with | ⟨0, _⟩ => rfl | ⟨1, _⟩ => rfl
theorem lidx48 (i : Fin 8192) (j : Fin 47) (k : Fin 256) : lidx_main_v48 (ix2 i j) k = ix2 i k := by
  funext a; match a with | ⟨0, _⟩ => rfl | ⟨1, _⟩ => rfl
theorem ridx48 (i : Fin 8192) (j : Fin 47) (k : Fin 256) : ridx_main_v48 (ix2 i j) k = ix2 k j := by
  funext a; match a with | ⟨0, _⟩ => rfl | ⟨1, _⟩ => rfl
theorem idx46 (i : Fin 8192) (k : Fin 256) : idx_main_v46 (ix2 i k) = ix2 (Cert.Sage.up1 i) k := by
  funext a; match a with | ⟨0, _⟩ => rfl | ⟨1, _⟩ => rfl
theorem idx4344 (i : Fin 8192) (k : Fin 256) : idx_main_v43 (idx_main_v44 (ix2 i k)) = ix1 i := by
  funext a; match a with | ⟨0, _⟩ => rfl
theorem idx5051 (i : Fin 8192) (j : Fin 47) : idx_main_v50 (idx_main_v51 (ix2 i j)) = ix1 j := by
  funext a; match a with | ⟨0, _⟩ => rfl

/-- The edge count of the output layer: the ones summed over the edges that end at node i, from the zero word. -/
theorem count1 (x10 : (⟨S204800, .i32⟩ : BufTy).Contents (Elt Ideal)) (i : Fin 8192) :
    val_main_v40 (F := Ideal) x10 (ix1 i)
      = Cert.Sage.segSum (val_main_v35 (F := Ideal) x10) (fun _ => Cert.Sage.one32) i := by
  unfold val_main_v40
  rw [scatterAdd_ideal]
  refine (scatterAdd_vec_apply (E := 204800) (N := 8192) _ rfl rfl rfl rfl _ _ _ i).trans ?_
  unfold Cert.Sage.segSum
  refine congrArg₂ (· + ·) ?_ (Finset.sum_congr rfl fun e _ => ?_)
  · rw [val_main_v38_apply, val_main_cst_8_apply]; rfl
  · rw [val_main_v37_apply, val_main_cst_7_apply]; rfl

/-- The divisor of the output layer's mean at node i, read at any column. -/
theorem den1 (x10 : (⟨S204800, .i32⟩ : BufTy).Contents (Elt Ideal)) (i : Fin 8192) (k : Fin 256) :
    val_main_v44 (F := Ideal) x10 (ix2 i k) = Cert.Sage.meanDen (val_main_v35 (F := Ideal) x10) i := by
  rw [val_main_v44_apply, val_main_v43_apply, idx4344, val_main_v42_apply, count1, val_main_v41_apply,
    val_main_cst_9_apply]
  rfl

/-- A gathered hidden row: the hidden table at the row the start index names, clamped into the table. -/
theorem gather1 (x0 : (⟨S600000x100, .f32⟩ : BufTy).Contents (Elt Ideal))
    (x1 x2 : (⟨S100x256, .f32⟩ : BufTy).Contents (Elt Ideal))
    (x3 : (⟨S256, .f32⟩ : BufTy).Contents (Elt Ideal))
    (x7 x8 : (⟨S2250000, .i32⟩ : BufTy).Contents (Elt Ideal))
    (x9 : (⟨S204800, .i32⟩ : BufTy).Contents (Elt Ideal)) (e : Fin 204800) (k : Fin 256) :
    val_main_v33 (F := Ideal) x0 x1 x2 x3 x7 x8 x9 (ix2 e k)
      = val_main_v26 (F := Ideal) x0 x1 x2 x3 x7 x8
          (ix2 (rowOf (N := 90000) (by decide) (val_main_v32 (F := Ideal) x9) e) k) := by
  unfold val_main_v33
  generalize val_main_v26 (F := Ideal) x0 x1 x2 x3 x7 x8 = h
  generalize val_main_v32 (F := Ideal) x9 = src
  exact gather_rows_apply (N := 90000) (R := 204800) (C := 256) (by decide)
    gather_S90000x256_S204800x1_S204800x256_1_0_n_n_0_1_1256.wf h src e k

/-- The neighbour sum of the output layer at (i, k). -/
theorem msg1 (x0 : (⟨S600000x100, .f32⟩ : BufTy).Contents (Elt Ideal))
    (x1 x2 : (⟨S100x256, .f32⟩ : BufTy).Contents (Elt Ideal))
    (x3 : (⟨S256, .f32⟩ : BufTy).Contents (Elt Ideal))
    (x7 x8 : (⟨S2250000, .i32⟩ : BufTy).Contents (Elt Ideal))
    (x9 x10 : (⟨S204800, .i32⟩ : BufTy).Contents (Elt Ideal)) (i : Fin 8192) (k : Fin 256) :
    val_main_v36 (F := Ideal) x0 x1 x2 x3 x7 x8 x9 x10 (ix2 i k)
      = Cert.Sage.segSum (val_main_v35 (F := Ideal) x10)
          (fun e => val_main_v26 (F := Ideal) x0 x1 x2 x3 x7 x8
            (ix2 (rowOf (N := 90000) (by decide) (val_main_v32 (F := Ideal) x9) e) k)) i := by
  unfold val_main_v36
  rw [scatterAdd_ideal]
  refine (scatterAdd_rows_apply (E := 204800) (N := 8192) (C := 256) _ rfl rfl rfl rfl _ _ _ i k).trans ?_
  unfold Cert.Sage.segSum
  refine congrArg₂ (· + ·) ?_ (Finset.sum_congr rfl fun e _ => gather1 x0 x1 x2 x3 x7 x8 x9 e k)
  rw [val_main_v34_apply, val_main_cst_6_apply]; rfl

/-- THE OUTPUT, entry (i, j): the second layer of the specification over the hidden table, the mean contracted
    against the neighbour weights after the sum over the edges. -/
theorem out_entry
    (x0 : (⟨S600000x100, .f32⟩ : BufTy).Contents (Elt Ideal))
    (x1 x2 : (⟨S100x256, .f32⟩ : BufTy).Contents (Elt Ideal))
    (x3 : (⟨S256, .f32⟩ : BufTy).Contents (Elt Ideal))
    (x4 x5 : (⟨S256x47, .f32⟩ : BufTy).Contents (Elt Ideal))
    (x6 : (⟨S47, .f32⟩ : BufTy).Contents (Elt Ideal))
    (x7 x8 : (⟨S2250000, .i32⟩ : BufTy).Contents (Elt Ideal))
    (x9 x10 : (⟨S204800, .i32⟩ : BufTy).Contents (Elt Ideal))
    (i : Fin 8192) (j : Fin 47) :
    Read.val_main_v52 (F := Ideal) x0 x1 x2 x3 x4 x5 x6 x7 x8 x9 x10 (ix2 i j)
      = Cert.Sage.outR (fun r c => Read.val_main_v26 (F := Ideal) x0 x1 x2 x3 x7 x8 (ix2 r c)) x4 x5 x6
          (Read.val_main_v32 (F := Ideal) x9) (Read.val_main_v35 (F := Ideal) x10) i j := by
  rw [val_main_v52_apply, val_main_v49_apply, val_main_v47_apply, val_main_v48_apply]
  unfold Cert.Sage.outR Cert.Sage.layer
  rw [Ideal.addf_def, Ideal.addf_def]
  refine congrArg₂ (· + ·) (congrArg₂ (· + ·) ?_ ?_) ?_
  · refine Finset.sum_congr rfl fun k _ => ?_
    rw [lidx47, ridx47, val_main_v46_apply, idx46]
  · refine Finset.sum_congr rfl fun k _ => ?_
    rw [lidx48, ridx48, val_main_v45_apply, msg1, den1, Ideal.hostDivf_def]
  · rw [val_main_v51_apply, val_main_v50_apply, idx5051]

end Cert.ReferenceIdeal.RefValue
end
-- ==== Proof.SageLaw.lean ====
/-
  Finiteness of the hidden layer and the exchange law of the output layer.

  Over real entries every piece of a layer is a real number: the zero word is 0 and the one word is the real 1, a
  segment sum of reals is a finite sum of reals, the divisor of the mean is the maximum of a real count and 1, so a
  real d ≥ 1, and dividing by it is multiplying by the real 1/d. Hence a layer of real data is real, and so is its
  maximum with zero.

  The two spellings of a layer agree over real neighbour rows and real neighbour weights. With c = 1/d,
    (Σ_{e∈s} Σ_k a e k · w k) · c = (Σ_k Σ_{e∈s} a e k · w k) · c = Σ_k (Σ_{e∈s} a e k · w k) · c
                                   = Σ_k ((Σ_{e∈s} a e k) · w k) · c = Σ_k ((Σ_{e∈s} a e k) · c) · w k,
  by exchanging two finite sums, moving a real factor across a finite sum of reals (twice), and commutativity of the
  product. Nothing here depends on a program.
-/
import proofs.«140910_j73993696576014_2_alg».proof.Proof.SageSpec

noncomputable section

namespace Cert.Sage

open Idealize.ShloMosaic Idealize.ShloMosaic.ValueIdx Cert.RealEntries Cert.SegmentSum
open Cert.KernelIdeal.Hand (rowOf)

/-- The zero word is 0. -/
theorem zero32_eq : zero32 = 0 := Ideal.ofBits_zero_f32

/-- The one word is the real number 1. -/
theorem one32_eq : one32 = ((1 : ℝ) : EReal) := by
  have h : Ideal.ofBits .f32 0x3F800000#32 = 1 := by
    simp [Ideal.ofBits, Ideal.ieee, -EReal.coe_mul]; norm_num
  exact h.trans EReal.coe_one.symm

theorem isReal_zero32 : IsReal zero32 := zero32_eq ▸ isReal_zero

theorem isReal_one32 : IsReal one32 := one32_eq ▸ isReal_coe 1

/-- The maximum of two real numbers is a real number. -/
theorem isReal_max {x y : EReal} (hx : IsReal x) (hy : IsReal y) : IsReal (max x y) := by
  rcases max_choice x y with h | h
  · rw [h]; exact hx
  · rw [h]; exact hy

variable {E N K : Nat}

/-- A segment sum is the plain finite sum over the edges that end at the node. -/
theorem segSum_eq (dst : IVec ⟨2, ![E, 1]⟩ 32) (g : Fin E → EReal) (n : Fin N) :
    segSum dst g n = ∑ e ∈ edgesAt dst n, g e := by
  unfold segSum
  rw [zero32_eq, zero_add]

/-- A segment sum of real numbers is a real number. -/
theorem segSum_isReal (dst : IVec ⟨2, ![E, 1]⟩ 32) (g : Fin E → EReal) (n : Fin N) (hg : ∀ e, IsReal (g e)) :
    IsReal (segSum dst g n) := by
  rw [segSum_eq]
  exact IsReal.sum _ _ fun e _ => hg e

/-- The divisor of the mean is a nonzero real number. -/
theorem meanDen_spec (dst : IVec ⟨2, ![E, 1]⟩ 32) (n : Fin N) :
    ∃ d : ℝ, d ≠ 0 ∧ meanDen dst n = (d : EReal) := by
  obtain ⟨a, ha⟩ := segSum_isReal dst (fun _ => one32) n fun _ => isReal_one32
  refine ⟨max a 1, ?_, ?_⟩
  · have h : (1 : ℝ) ≤ max a 1 := le_max_right a 1
    intro h0
    rw [h0] at h
    exact absurd h (by norm_num)
  · unfold meanDen
    rw [ha, one32_eq]
    exact (EReal.coe_strictMono.monotone.map_max (a := a) (b := 1)).symm

/-- Dividing by the divisor of the mean is multiplying by a real number. -/
theorem div_meanDen (dst : IVec ⟨2, ![E, 1]⟩ 32) (n : Fin N) :
    ∃ c : ℝ, ∀ x : EReal, Ideal.div x (meanDen dst n) = x * (c : EReal) := by
  obtain ⟨d, hd, he⟩ := meanDen_spec dst n
  exact ⟨1 / d, fun x => by rw [he]; exact Ideal.div_coe hd x⟩

/-- A layer of real data is a real number. -/
theorem layer_isReal (hd : Fin K → EReal) (nb : Fin E → Fin K → EReal) (dst : IVec ⟨2, ![E, 1]⟩ 32) (n : Fin N)
    (ws wn : Fin K → EReal) (b : EReal) (hhd : ∀ k, IsReal (hd k)) (hnb : ∀ e k, IsReal (nb e k))
    (hws : ∀ k, IsReal (ws k)) (hwn : ∀ k, IsReal (wn k)) (hb : IsReal b) :
    IsReal (layer hd nb dst n ws wn b) := by
  obtain ⟨c, hc⟩ := div_meanDen dst n
  unfold layer
  refine ((IsReal.sum _ _ fun k _ => (hhd k).mul (hws k)).add (IsReal.sum _ _ fun k _ => ?_)).add hb
  rw [hc]
  exact ((segSum_isReal dst _ n fun e => hnb e k).mul (isReal_coe c)).mul (hwn k)

/-- The two spellings of a layer agree over real neighbour rows and real neighbour weights. -/
theorem layerP_eq_layer (hd : Fin K → EReal) (nb : Fin E → Fin K → EReal) (dst : IVec ⟨2, ![E, 1]⟩ 32) (n : Fin N)
    (ws wn : Fin K → EReal) (b : EReal) (hnb : ∀ e k, IsReal (nb e k)) (hwn : ∀ k, IsReal (wn k)) :
    layerP hd nb dst n ws wn b = layer hd nb dst n ws wn b := by
  obtain ⟨c, hc⟩ := div_meanDen dst n
  unfold layerP layer
  congr 2
  rw [hc, segSum_eq]
  calc (∑ e ∈ edgesAt dst n, ∑ k, nb e k * wn k) * (c : EReal)
      = (∑ k, ∑ e ∈ edgesAt dst n, nb e k * wn k) * (c : EReal) := by rw [Finset.sum_comm]
    _ = ∑ k, (∑ e ∈ edgesAt dst n, nb e k * wn k) * (c : EReal) :=
        sum_mul_of_isReal _ _ _ (fun k _ => IsReal.sum _ _ fun e _ => (hnb e k).mul (hwn k)) (isReal_coe c)
    _ = ∑ k, Ideal.div (segSum dst (fun e => nb e k) n) (meanDen dst n) * wn k :=
        Finset.sum_congr rfl fun k _ => by
          rw [hc, segSum_eq, ← sum_mul_of_isReal (edgesAt dst n) (fun e => nb e k) (wn k) (fun e _ => hnb e k) (hwn k),
            mul_right_comm]

/-- The hidden layer of real inputs is real. -/
theorem hidden_isReal (x : (⟨2, ![600000, 100]⟩ : Shape).Idx → EReal) (ws wn : (⟨2, ![100, 256]⟩ : Shape).Idx → EReal)
    (b : (⟨1, ![256]⟩ : Shape).Idx → EReal) (src dst : IVec ⟨2, ![2250000, 1]⟩ 32)
    (hx : ∀ p, IsReal (x p)) (hws : ∀ p, IsReal (ws p)) (hwn : ∀ p, IsReal (wn p)) (hb : ∀ p, IsReal (b p))
    (r : Fin 90000) (c : Fin 256) :
    IsReal (hidden x ws wn b src dst r c) := by
  unfold hidden
  exact isReal_max (layer_isReal _ _ _ _ _ _ _ (fun _ => hx _) (fun _ _ => hx _) (fun _ => hws _) (fun _ => hwn _) (hb _))
    isReal_zero32

/-- Over a real hidden table and real neighbour weights the two spellings of the output layer agree. -/
theorem outK_eq_outR (h : Fin 90000 → Fin 256 → EReal) (ws wn : (⟨2, ![256, 47]⟩ : Shape).Idx → EReal)
    (b : (⟨1, ![47]⟩ : Shape).Idx → EReal) (src dst : IVec ⟨2, ![204800, 1]⟩ 32)
    (hh : ∀ r c, IsReal (h r c)) (hwn : ∀ p, IsReal (wn p)) (i : Fin 8192) (j : Fin 47) :
    outK h ws wn b src dst i j = outR h ws wn b src dst i j := by
  unfold outK outR
  exact layerP_eq_layer _ _ _ _ _ _ _ (fun _ _ => hh _ _) (fun _ => hwn _)

end Cert.Sage

end
-- ==== Proof.Finite.lean ====
/-
  The finiteness precondition, decoded.

  The precondition is the conjunction, over the seven floating-point inputs, of "every entry x satisfies |x| < +∞".
  On the extended reals |x| is max x (−x), which is +∞ at both infinities, so an entry that passes the test is a
  real number. The conjunction is a chain of one-bit ands whose value is 1 exactly when every operand is 1, and each
  operand is a reduction by and over a whole array, which is 1 only if every element is 1.
-/
import proofs.«140910_j73993696576014_2_alg».proof.Pre_finite_inputs
import proofs.«140910_j73993696576014_2_alg».proof.Proof.LibRealEntries
import Idealize.ShloMosaic.Lib.ReduceAll
import Idealize.ShloMosaic.Lib.ValueIdx

noncomputable section

namespace Cert.Finite

open Idealize.ShloMosaic Cert.RealEntries Cert.Pre_finite_inputs

/-- The word 0x7F800000 is +∞. -/
theorem inf32_eq : Ideal.ofBits .f32 0x7F800000#32 = ⊤ := by
  simp [Ideal.ofBits, Ideal.ieee]

/-- An extended real whose absolute value max x (−x) is below +∞ is a real number. -/
theorem isReal_of_abs_lt (x : EReal)
    (h : Ideal.cmp .olt (max x (-x)) (Ideal.ofBits .f32 0x7F800000#32) = 1#1) : IsReal x := by
  rw [inf32_eq] at h
  induction x using EReal.rec with
  | bot => simp [Ideal.cmp] at h
  | coe a => exact ⟨a, rfl⟩
  | top => simp [Ideal.cmp] at h

/-- The shape with no axes has a single index. -/
instance : Subsingleton S_.Idx := ⟨fun _ _ => funext fun d => d.elim0⟩

end Cert.Finite

open Idealize.ShloMosaic Cert.RealEntries Cert.Pre_finite_inputs Cert.Finite in
/-- Under the finiteness precondition the features, the two hidden-layer weight tables, the hidden-layer bias and the
    output layer's neighbour weights have real entries. -/
theorem real_of_pre [Cert.Pre_finite_inputs.Facts] (a0 : FVec Ideal S600000x100 .f32) (a1 a2 : FVec Ideal S100x256 .f32)
    (a3 : FVec Ideal S256 .f32) (a4 a5 : FVec Ideal S256x47 .f32) (a6 : FVec Ideal S47 .f32) (a7 a8 : IVec S2250000 32)
    (a9 a10 : IVec S204800 32)
    (h : Cert.Pre_finite_inputs.fn (F := Ideal) a0 a1 a2 a3 a4 a5 a6 a7 a8 a9 a10 = fun _ => 1#1) :
    (∀ p, Cert.RealEntries.IsReal (a0 p)) ∧ (∀ p, Cert.RealEntries.IsReal (a1 p)) ∧ (∀ p, Cert.RealEntries.IsReal (a2 p))
      ∧ (∀ p, Cert.RealEntries.IsReal (a3 p)) ∧ (∀ p, Cert.RealEntries.IsReal (a5 p)) := by
  have h0 := congrFun h ValueIdx.ix0
  dsimp only [fn, fn_part1, Idealize.ShloMosaic.andi] at h0
  simp only [IntOp.andi_eq_one] at h0
  obtain ⟨⟨⟨⟨⟨⟨h1, h2⟩, h3⟩, h4⟩, _⟩, h6⟩, _⟩ := h0
  exact ⟨fun p => isReal_of_abs_lt _ (Host.reduce_andi_all _ _ _ _ _ h1 p),
    fun p => isReal_of_abs_lt _ (Host.reduce_andi_all _ _ _ _ _ h2 p),
    fun p => isReal_of_abs_lt _ (Host.reduce_andi_all _ _ _ _ _ h3 p),
    fun p => isReal_of_abs_lt _ (Host.reduce_andi_all _ _ _ _ _ h4 p),
    fun p => isReal_of_abs_lt _ (Host.reduce_andi_all _ _ _ _ _ h6 p)⟩

end
-- ==== Proof.lean ====
/-
  The certificate of a two-layer mean-aggregation graph convolution: three fused kernels with gathers and segment sums
  between them, against the plain reference.

  Both programs compute, for every one of the first 8192 nodes i and every class j,

      h(i,·) · W_self1(·,j) + mean_{edges e into i} h(src e, ·) · W_neigh1(·,j) + b1(j),

  where h = max(layer 0, 0) is the hidden layer over the first 90000 nodes and a mean divides the sum over the edges by
  their number, at least one. Layer 0 is the same formula on both sides. In layer 1 the kernel program multiplies the
  hidden table by W_neigh1 first and then gathers and sums rows of width 47, where the reference gathers and sums rows
  of width 256 and multiplies afterwards: (Σ_e Σ_k h(src e,k) w(k)) / n = Σ_k ((Σ_e h(src e,k)) / n) w(k). That is two
  finite sums exchanged and a real factor moved across a finite sum — laws of the real numbers, not of the extended
  reals, so the finite-inputs precondition is used: it makes the feature table and the layer-0 parameters real, hence the
  hidden table real, and the layer-1 neighbour weights real.

  The frames are the generated ones (the reference's is its run with the result dropped); the idealization changed no
  operation, so there is nothing to preserve. The kernel program's result is read off its run through the three regions'
  closed forms and the host operations between them; the reference's off its run, one operation at a time.
-/
import proofs.«140910_j73993696576014_2_alg».proof.Defs
import proofs.«140910_j73993696576014_2_alg».proof.Proof.Gen.Kernel
import proofs.«140910_j73993696576014_2_alg».proof.Proof.Gen.Kernel.Skeleton
import proofs.«140910_j73993696576014_2_alg».proof.Proof.Gen.Kernel.Launch
import proofs.«140910_j73993696576014_2_alg».proof.Proof.Gen.Kernel.Points
import proofs.«140910_j73993696576014_2_alg».proof.Proof.Gen.Kernel.Frame
import proofs.«140910_j73993696576014_2_alg».proof.Proof.Gen.KernelIdeal
import proofs.«140910_j73993696576014_2_alg».proof.Proof.Gen.KernelIdeal.Skeleton
import proofs.«140910_j73993696576014_2_alg».proof.Proof.Gen.KernelIdeal.Launch
import proofs.«140910_j73993696576014_2_alg».proof.Proof.Gen.KernelIdeal.Points
import proofs.«140910_j73993696576014_2_alg».proof.Proof.Gen.KernelIdeal.Frame
import proofs.«140910_j73993696576014_2_alg».proof.Proof.Gen.ReferenceIdeal
import proofs.«140910_j73993696576014_2_alg».proof.Proof.Gen.ReferenceIdeal.Run
import proofs.«140910_j73993696576014_2_alg».proof.Proof.Gen.ReferenceIdeal.Read
import proofs.«140910_j73993696576014_2_alg».proof.Proof.Gen.Pre_finite_inputs
import proofs.«140910_j73993696576014_2_alg».proof.Proof.KernelRun
import proofs.«140910_j73993696576014_2_alg».proof.Proof.KernelValue
import proofs.«140910_j73993696576014_2_alg».proof.Proof.Region0
import proofs.«140910_j73993696576014_2_alg».proof.Proof.Region1
import proofs.«140910_j73993696576014_2_alg».proof.Proof.Region2
import proofs.«140910_j73993696576014_2_alg».proof.Proof.RefValue
import proofs.«140910_j73993696576014_2_alg».proof.Proof.SageLaw
import proofs.«140910_j73993696576014_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The index columns the two programs build from the same edge words are the same arrays. -/
theorem src0_eq (x7 : IVec ⟨1, ![2250000]⟩ 32) :
    Cert.ReferenceIdeal.Read.val_main_v5 (F := Ideal) x7 = Cert.KernelIdeal.Stretch.src0 x7 := rfl
theorem dst0_eq (x8 : IVec ⟨1, ![2250000]⟩ 32) :
    Cert.ReferenceIdeal.Read.val_main_v8 (F := Ideal) x8 = Cert.KernelIdeal.Stretch.dst0 x8 := rfl
theorem src1_eq (x9 : IVec ⟨1, ![204800]⟩ 32) :
    Cert.ReferenceIdeal.Read.val_main_v32 (F := Ideal) x9 = Cert.KernelIdeal.Stretch.src1 x9 := rfl
theorem dst1_eq (x10 : IVec ⟨1, ![204800]⟩ 32) :
    Cert.ReferenceIdeal.Read.val_main_v35 (F := Ideal) x10 = Cert.KernelIdeal.Stretch.dst1 x10 := rfl

/-- At the ideal values, under finite inputs, the two programs end with the same result: entry by entry the output
    layer over the hidden layer of the arguments, the kernel program's spelling contracted before the sum over the
    edges and the reference's after it. -/
theorem algebraic : Cert.algebraic_KernelIdeal_ReferenceIdeal := by
  intro m ρ m' ρ' hpre hagree
  refine ⟨fun c => Cert.KernelIdeal.Gen.W5 m ρ c (Proc.devRef .tc Cert.KernelIdeal.main_v36),
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  obtain ⟨r0, r1, r2, r3, r5⟩ := real_of_pre _ _ _ _ _ _ _ _ _ _ _ (hpre c)
  rw [Cert.ReferenceIdeal.Read.val_main_v52_eq, h0, h1, h2, h3, h4, h5, h6, h7, h8, h9, h10]
  funext p
  obtain ⟨i, j, rfl⟩ : ∃ (i : Fin 8192) (j : Fin 47), p = ix2 i j := ⟨p 0, p 1, eq_ix2 p⟩
  refine (Cert.ReferenceIdeal.RefValue.out_entry _ _ _ _ _ _ _ _ _ _ _ i j).trans ?_
  refine Eq.trans ?_ (Cert.KernelIdeal.KValue.kernel_entry m ρ Cert.KernelIdeal.RegionValue.final0
    Cert.KernelIdeal.RegionValue.final1 Cert.KernelIdeal.RegionValue.final2 c i j).symm
  rw [src1_eq, dst1_eq]
  simp only [Cert.ReferenceIdeal.RefValue.hidden_entry, src0_eq, dst0_eq]
  exact (Cert.Sage.outK_eq_outR _ _ _ _ _ _
    (fun r q => Cert.Sage.hidden_isReal _ _ _ _ _ _ r0 r1 r2 r3 r q) r5 i j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
